-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S16x512x512 : Shape := ⟨3, ![16, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) (main_arg1 : IVec S16x512x512 32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S16x512x512 : Shape := ⟨3, ![16, 512, 512]⟩
abbrev S2x4x4 : Shape := ⟨3, ![2, 4, 4]⟩
abbrev S1x4x512x512 : Shape := ⟨4, ![1, 4, 512, 512]⟩
abbrev S1x512x512 : Shape := ⟨3, ![1, 512, 512]⟩
abbrev S1x4x4 : Shape := ⟨3, ![1, 4, 4]⟩
abbrev S4x1x1 : Shape := ⟨3, ![4, 1, 1]⟩
abbrev S4x512x512 : Shape := ⟨3, ![4, 512, 512]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S4x512 : Shape := ⟨2, ![4, 512]⟩
abbrev S4x512x1 : Shape := ⟨3, ![4, 512, 1]⟩
abbrev S4x1 : Shape := ⟨2, ![4, 1]⟩
abbrev S1x4x1 : Shape := ⟨3, ![1, 4, 1]⟩
abbrev S_ : Shape := ⟨0, ![]⟩
abbrev S4x4 : Shape := ⟨2, ![4, 4]⟩
abbrev S4 : Shape := ⟨1, ![4]⟩

abbrev nBuf : Space → Nat
  | .hbm => 55
  | .vmem => 10
  | .smem => 0
  | _ => 0

abbrev bufTy : (tb : Table) → Fin (tcTables nBuf tb) → BufTy
  | .hbm, ⟨0, _⟩ => ⟨S16x4x512x512, .f32⟩
  | .hbm, ⟨1, _⟩ => ⟨S16x512x512, .i32⟩
  | .hbm, ⟨2, _⟩ => ⟨S2x4x4, .f32⟩
  | .hbm, ⟨3, _⟩ => ⟨S_, .f32⟩
  | .hbm, ⟨4, _⟩ => ⟨S4x4, .f32⟩
  | .hbm, ⟨5, _⟩ => ⟨S4x1, .f32⟩
  | .hbm, ⟨6, _⟩ => ⟨S4, .f32⟩
  | .hbm, ⟨7, _⟩ => ⟨S4x1, .f32⟩
  | .hbm, ⟨8, _⟩ => ⟨S4, .f32⟩
  | .hbm, ⟨9, _⟩ => ⟨S4x1, .f32⟩
  | .hbm, ⟨10, _⟩ => ⟨S4, .f32⟩
  | .hbm, ⟨11, _⟩ => ⟨S4x1, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1x4x512x512, .f32⟩
  | .local _ .vmem, ⟨1, _⟩ => ⟨S1x4x512x512, .f32⟩
  | .local _ .vmem, ⟨2, _⟩ => ⟨S1x512x512, .i32⟩
  | .local _ .vmem, ⟨3, _⟩ => ⟨S1x512x512, .i32⟩
  | .local _ .vmem, ⟨4, _⟩ => ⟨S1x4x4, .f32⟩
  | .local _ .vmem, ⟨5, _⟩ => ⟨S1x4x4, .f32⟩
  | .local _ .vmem, ⟨6, _⟩ => ⟨S4x1x1, .f32⟩
  | .local _ .vmem, ⟨7, _⟩ => ⟨S4x1x1, .f32⟩
  | .local _ .vmem, ⟨8, _⟩ => ⟨S4x1x1, .f32⟩
  | .local _ .vmem, ⟨9, _⟩ => ⟨S4x1x1, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v84 : BitVec 1 := Scalar.cmpi .eq arg1 c7_i32
  let v85 : BitVec 32 := Scalar.extui v84
  let c0_i32_43 : BitVec 32 := 0#32
  let v86 : BitVec 1 := Scalar.cmpi .ne v85 c0_i32_43
  v86

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  inb_S1x4x512x512_S1x4x512x512_0_0_0_0 : ∀ a, (![0, 0, 0, 0] : Fin 4 → Nat) a + S1x4x512x512.size a ≤ S1x4x512x512.size a
  h_S1x4x512x512 : 0 < S1x4x512x512.numel
  shapeCasts_S1x4x512x512_S4x512x512 : S1x4x512x512.ShapeCasts S4x512x512
  reduces_S4x512x512_S512x512 : S4x512x512.Reduces [0] S512x512
  shapeCasts_S512x512_S1x512x512 : S512x512.ShapeCasts S1x512x512
  broadcasts_S1x512x512_S4x512x512 : S1x512x512.Broadcasts S4x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S4x512x512_d0_w32 : S4x512x512.Iotas .tc 32 [0]
  natLt_1_32 : 1 < 32
  slices_S512x512_o0_0_S511x512 : S512x512.Slices ![0, 0] S511x512
  concatenates_S1x512_S511x512_S512x512_d0 : Shape.Concatenates [S1x512, S511x512] S512x512 0
  slices_S512x512_o1_0_S511x512 : S512x512.Slices ![1, 0] S511x512
  concatenates_S511x512_S1x512_S512x512_d0 : Shape.Concatenates [S511x512, S1x512] S512x512 0
  slices_S512x512_o0_0_S512x511 : S512x512.Slices ![0, 0] S512x511
  concatenates_S512x1_S512x511_S512x512_d1 : Shape.Concatenates [S512x1, S512x511] S512x512 1
  slices_S512x512_o0_1_S512x511 : S512x512.Slices ![0, 1] S512x511
  concatenates_S512x511_S512x1_S512x512_d1 : Shape.Concatenates [S512x511, S512x1] S512x512 1
  reduces_S4x512x512_S4x512 : S4x512x512.Reduces [2] S4x512
  shapeCasts_S4x512_S4x512x1 : S4x512.ShapeCasts S4x512x1
  reduces_S4x512x1_S4x1 : S4x512x1.Reduces [1] S4x1
  shapeCasts_S4x1_S4x1x1 : S4x1.ShapeCasts S4x1x1
  shapeCasts_S4x1x1_S4x1 : S4x1x1.ShapeCasts S4x1
  inb_S1x4x4_S1x4x1_0_0_0 : ∀ a, (![0, 0, 0] : Fin 3 → Nat) a + S1x4x1.size a ≤ S1x4x4.size a
  h_S1x4x1 : 0 < S1x4x1.numel
  shapeCasts_S1x4x1_S4x1 : S1x4x1.ShapeCasts S4x1
  shapeCasts_S4x1_S1x4x1 : S4x1.ShapeCasts S1x4x1
  inb_S1x4x4_S1x4x1_0_0_1 : ∀ a, (![0, 0, 1] : Fin 3 → Nat) a + S1x4x1.size a ≤ S1x4x4.size a
  inb_S1x4x4_S1x4x1_0_0_2 : ∀ a, (![0, 0, 2] : Fin 3 → Nat) a + S1x4x1.size a ≤ S1x4x4.size a
  inb_S1x4x4_S1x4x1_0_0_3 : ∀ a, (![0, 0, 3] : Fin 3 → Nat) a + S1x4x1.size a ≤ S1x4x4.size a
  reducesTo_S2x4x4_S4x4_d0 : S2x4x4.ReducesTo [0] S4x4
  h_S_ : 0 < S_.numel
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S16x4x512x512.size a
  hwx0_0 : ∀ i : grid0.Coords, EltTy.bits .f32 = 32 ∨ (Rect.block (s := S16x4x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .i32 = 32 ∨ (Rect.block (s := S16x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4.size a ≤ S2x4x4.size a
  hwx0_2 : ∀ i : grid0.Coords, EltTy.bits .f32 = 32 ∨ (Rect.block (s := S2x4x4) S1x4x4.size (cc0_transform_2 i) (hinb0_2 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4x512x512 : Shape := ⟨4, ![16, 4, 512, 512]⟩
abbrev S16x512x512 : Shape := ⟨3, ![16, 512, 512]⟩
abbrev S_ : Shape := ⟨0, ![]⟩
abbrev S16x1x512x512 : Shape := ⟨4, ![16, 1, 512, 512]⟩
abbrev S4 : Shape := ⟨1, ![4]⟩
abbrev S1x4x1x1 : Shape := ⟨4, ![1, 4, 1, 1]⟩
abbrev S16x4x514x514 : Shape := ⟨4, ![16, 4, 514, 514]⟩

abbrev nBuf : Space → Nat
  | .hbm => 107
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S16x512x512, .i32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S16x512x512, .f32⟩
  | .hbm, ⟨6, _⟩ => ⟨S16x512x512, .f32⟩
  | .hbm, ⟨7, _⟩ => ⟨S16x1x512x512, .f32⟩
  | .hbm, ⟨8, _⟩ => ⟨S16x4x512x512, .f32⟩
  | .hbm, ⟨9, _⟩ => ⟨S16x4x512x512, .f32⟩
  | .hbm, ⟨10, _⟩ => ⟨S16x4x512x512, .f32⟩
  | .hbm, ⟨11, _⟩ => ⟨S_, .f32⟩
  | .hbm, ⟨12, _⟩ => ⟨S16x512x512, .f32⟩
  | .hbm, ⟨13, _⟩ => ⟨S16x1x512x512, .f32⟩
  | .hbm, ⟨14, _⟩ => ⟨S16x4x512x512, .f32⟩
  | .hbm, ⟨15, _⟩ => ⟨S16x4x512x512, .f32⟩
  | .hbm, ⟨16, _⟩ => ⟨S16x1x512x512, .i32⟩
  | .hbm, ⟨17, _⟩ => ⟨S4, .i32⟩
  | .hbm, ⟨18, _⟩ => ⟨S1x4x1x1, .i32⟩
  | .hbm, ⟨19, _⟩ => ⟨S16x4x512x512, .i32⟩
  | .hbm, ⟨20, _⟩ => ⟨S16x4x512x512, .i32⟩
  | .hbm, ⟨21, _⟩ => ⟨S16x4x512x512, .i1⟩
  | .hbm, ⟨22, _⟩ => ⟨S16x4x512x512, .f32⟩
  | .hbm, ⟨23, _⟩ => ⟨S_, .i32⟩
  | .hbm, ⟨24, _⟩ => ⟨S_, .f32⟩
  | .hbm, ⟨25, _⟩ => ⟨S16x4x514x514, .f32⟩
  | .hbm, ⟨26, _⟩ => ⟨S16x4x512x512, .f32⟩
  | .hbm, ⟨27, _⟩ => ⟨S16x4x512x512, .f32⟩
  | .hbm, ⟨28, _⟩ => ⟨S16x4x512x512, .f32⟩
  | .hbm, ⟨29, _⟩ => ⟨S16x4x512x512, .f32⟩
  | .hbm, ⟨30, _⟩ => ⟨S16x4x512x512, .f32⟩
  | .hbm, ⟨31, _⟩ => ⟨S16x4x512x512, .f32⟩
  | .hbm, ⟨32, _⟩ => ⟨S16x4x512x512, .f32⟩
  | .hbm, ⟨33, _⟩ => ⟨S16x4x512x512, .f32⟩
  | .hbm, ⟨34, _⟩ => ⟨S16x4x512x512, .f32⟩
  | .hbm, ⟨35, _⟩ => ⟨S16x4x512x512, .f32⟩
  | .hbm, ⟨36, _⟩ => ⟨S_, .f32⟩
  | .hbm, ⟨37, _⟩ => ⟨S16x4x512x512, .f32⟩
  | .hbm, ⟨38, _⟩ => ⟨S16x4x512x512, .i1⟩
  | .hbm, ⟨39, _⟩ => ⟨S_, .f32⟩
  | .hbm, ⟨40, _⟩ => ⟨S_, .f32⟩
  | .hbm, ⟨41, _⟩ => ⟨S16x4x512x512, .f32⟩
  | .hbm, ⟨42, _⟩ => ⟨S16x4x512x512, .f32⟩
  | .hbm, ⟨43, _⟩ => ⟨S_, .f32⟩
  | .hbm, ⟨44, _⟩ => ⟨S16x4x512x512, .f32⟩
  | .hbm, ⟨45, _⟩ => ⟨S16x4x512x512, .i1⟩
  | .hbm, ⟨46, _⟩ => ⟨S16x4x512x512, .i32⟩
  | .hbm, ⟨47, _⟩ => ⟨S_, .i32⟩
  | .hbm, ⟨48, _⟩ => ⟨S4, .i32⟩
  | .hbm, ⟨49, _⟩ => ⟨S4, .f32⟩
  | .hbm, ⟨50, _⟩ => ⟨S_, .f32⟩
  | .hbm, ⟨51, _⟩ => ⟨S16x4x512x512, .f32⟩
  | .hbm, ⟨52, _⟩ => ⟨S16x4x512x512, .i1⟩
  | .hbm, ⟨53, _⟩ => ⟨S16x4x512x512, .i32⟩
  | .hbm, ⟨54, _⟩ => ⟨S_, .i32⟩
  | .hbm, ⟨55, _⟩ => ⟨S4, .i32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S16x4x512x512, .f32⟩
  | .hbm, ⟨77, _⟩ => ⟨S_, .f32⟩
  | .hbm, ⟨78, _⟩ => ⟨S4, .f32⟩
  | .hbm, ⟨79, _⟩ => ⟨S16x4x512x512, .f32⟩
  | .hbm, ⟨80, _⟩ => ⟨S_, .f32⟩
  | .hbm, ⟨81, _⟩ => ⟨S4, .f32⟩
  | .hbm, ⟨82, _⟩ => ⟨S16x4x512x512, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S_, .f32⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S_, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S_, .f32⟩
  | .hbm, ⟨100, _⟩ => ⟨S4, .f32⟩
  | .hbm, ⟨101, _⟩ => ⟨S4, .f32⟩
  | .hbm, ⟨102, _⟩ => ⟨S4, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_21 : Ref sig .tc := ⟨.hbm, 103, rfl⟩
abbrev main_v75 : Ref sig .tc := ⟨.hbm, 104, rfl⟩
abbrev main_cst_22 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  reducesTo_S16x4x512x512_S16x512x512_d1 : S16x4x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x4x512x512_0_1_2_3 : S16x1x512x512.BroadcastsInDim S16x4x512x512 (![0, 1, 2, 3] : Fin 4 → Fin S16x4x512x512.rank)
  bcast_S4_S1x4x1x1_1 : S4.BroadcastsInDim S1x4x1x1 (![1] : Fin 1 → Fin S1x4x1x1.rank)
  bcast_S1x4x1x1_S16x4x512x512_0_1_2_3 : S1x4x1x1.BroadcastsInDim S16x4x512x512 (![0, 1, 2, 3] : Fin 4 → Fin S16x4x512x512.rank)
  pads_S16x4x512x512_S16x4x514x514_000_000_110_110 : S16x4x512x512.Pads (![0, 0, 1, 1] : Fin 4 → Nat) ![0, 0, 1, 1] ![0, 0, 0, 0] S16x4x514x514
  slices_S16x4x514x514_S16x4x512x512_0_0_1_1 : S16x4x514x514.Slices ![0, 0, 1, 1] S16x4x512x512
  slices_S16x4x514x514_S16x4x512x512_0_0_0_1 : S16x4x514x514.Slices ![0, 0, 0, 1] S16x4x512x512
  slices_S16x4x514x514_S16x4x512x512_0_0_2_1 : S16x4x514x514.Slices ![0, 0, 2, 1] S16x4x512x512
  slices_S16x4x514x514_S16x4x512x512_0_0_1_0 : S16x4x514x514.Slices ![0, 0, 1, 0] S16x4x512x512
  slices_S16x4x514x514_S16x4x512x512_0_0_1_2 : S16x4x514x514.Slices ![0, 0, 1, 2] S16x4x512x512
  bcast_S_S16x4x512x512 : S_.BroadcastsInDim S16x4x512x512 (![] : Fin 0 → Fin S16x4x512x512.rank)
  natLt_1_32 : 1 < 32
  reducesTo_S16x4x512x512_S4_d0_2_3 : S16x4x512x512.ReducesTo [0, 2, 3] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.Spec.lean ====
/-
  The specification: what both programs compute, as functions of the two argument arrays, index by index.

  The arguments are `X` (logits, [16, 4, 512, 512]: image, class, row, column) and `T` (labels, [16, 512, 512]).
  Per pixel the class scores are the softmax of the logits along the class axis; a pixel's one-hot `oh` at class `c`
  is 1 when its label is `c`, else 0; a pixel is `inner` when each of its four neighbours carries its own label, a
  neighbour outside the image counting as the label -1. Four per-class totals over every image and pixel follow: the
  region size `S`, the inner count `Ic`, the intersection `I` and the squared score mass `Z`. The result is one
  number, a fixed rational expression of these totals (`tail`): the loss of class `c` is
  (Z + S - 2 I + e) / (Z + S - (1 + a) I + e) with a = min (2 (1 - (B + e) / (S + e)) - 1, 0.8), `B` the boundary count,
  and the result is the mean of the four.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SX : Shape := ⟨4, ![16, 4, 512, 512]⟩
abbrev ST : Shape := ⟨3, ![16, 512, 512]⟩
abbrev S4 : Shape := ⟨1, ![4]⟩
abbrev S0 : Shape := ⟨0, ![]⟩

section Pixel

variable (X : SX.Idx → EReal) (T : ST.Idx → BitVec 32)

/-- The largest logit of a pixel over the four classes, from the word of -∞. -/
def mx (b : Fin 16) (i j : Fin 512) : EReal :=
  (Finset.univ : Finset (Fin 4)).fold max (Ideal.ofBits .f32 0xFF800000#32) (fun c => X (ix4 b c i j))

/-- The shifted exponential of one logit. -/
def ex (b : Fin 16) (c : Fin 4) (i j : Fin 512) : EReal := Ideal.exp (X (ix4 b c i j) - mx X b i j)

/-- The softmax denominator of a pixel. -/
def den (b : Fin 16) (i j : Fin 512) : EReal := ∑ c : Fin 4, ex X b c i j

/-- The softmax score. -/
def pr (b : Fin 16) (c : Fin 4) (i j : Fin 512) : EReal := Ideal.div (ex X b c i j) (den X b i j)

/-- The one-hot of the label at class `c`. -/
def oh (b : Fin 16) (c : Fin 4) (i j : Fin 512) : EReal :=
  if T (ix3 b i j) = BitVec.ofNat 32 c.val then 1 else 0

/-- The label above a pixel, -1 above the first row. -/
def up (b : Fin 16) (i j : Fin 512) : BitVec 32 :=
  if h : i.val = 0 then 4294967295#32 else T (ix3 b ⟨i.val - 1, by omega⟩ j)
/-- The label below a pixel, -1 below the last row. -/
def down (b : Fin 16) (i j : Fin 512) : BitVec 32 :=
  if h : i.val = 511 then 4294967295#32 else T (ix3 b ⟨i.val + 1, by omega⟩ j)
/-- The label left of a pixel, -1 left of the first column. -/
def left (b : Fin 16) (i j : Fin 512) : BitVec 32 :=
  if h : j.val = 0 then 4294967295#32 else T (ix3 b i ⟨j.val - 1, by omega⟩)
/-- The label right of a pixel, -1 right of the last column. -/
def right (b : Fin 16) (i j : Fin 512) : BitVec 32 :=
  if h : j.val = 511 then 4294967295#32 else T (ix3 b i ⟨j.val + 1, by omega⟩)

/-- A pixel all of whose four neighbours carry its label. -/
def Inner (b : Fin 16) (i j : Fin 512) : Prop :=
  up T b i j = T (ix3 b i j) ∧ down T b i j = T (ix3 b i j) ∧ left T b i j = T (ix3 b i j) ∧ right T b i j = T (ix3 b i j)

instance (b : Fin 16) (i j : Fin 512) : Decidable (Inner T b i j) := by unfold Inner; infer_instance

/-- 1 at an inner pixel, else 0. -/
def inr (b : Fin 16) (i j : Fin 512) : EReal := if Inner T b i j then 1 else 0

end Pixel

/-- A per-class total over every image and pixel. -/
def tot (f : Fin 16 → Fin 4 → Fin 512 → Fin 512 → EReal) (c : Fin 4) : EReal :=
  ∑ b : Fin 16, ∑ i : Fin 512, ∑ j : Fin 512, f b c i j

section Totals

variable (X : SX.Idx → EReal) (T : ST.Idx → BitVec 32)

def Stot : Fin 4 → EReal := tot (oh T)
def Ictot : Fin 4 → EReal := tot (fun b c i j => oh T b c i j * inr T b i j)
def Itot : Fin 4 → EReal := tot (fun b c i j => pr X b c i j * oh T b c i j)
def Ztot : Fin 4 → EReal := tot (fun b c i j => pr X b c i j * pr X b c i j)

/-- The totals as vectors of four. -/
def Sv : FVec Ideal S4 .f32 := fun j => Stot T (j 0)
def Icv : FVec Ideal S4 .f32 := fun j => Ictot T (j 0)
def Iv : FVec Ideal S4 .f32 := fun j => Itot X T (j 0)
def Zv : FVec Ideal S4 .f32 := fun j => Ztot X (j 0)

end Totals

/-- The closing arithmetic both programs apply to their five vectors of four: `bnd` the boundary count, `Sa` the
    region size where the weight `a` is formed, `Sb` the region size where the loss is formed, `I` and `Z`. -/
def tail (bnd Sa Sb I Z : FVec Ideal S4 .f32) : FVec Ideal S0 .f32 :=
  let eps : FVec Ideal S4 .f32 := broadcastInDim S4 ![] (by decide) (constant (F := Ideal) S0 .f32 0x3727C5AC#32)
  let one : FVec Ideal S4 .f32 := broadcastInDim S4 ![] (by decide) (constant (F := Ideal) S0 .f32 0x3F800000#32)
  let two : FVec Ideal S4 .f32 := broadcastInDim S4 ![] (by decide) (constant (F := Ideal) S0 .f32 0x40000000#32)
  let cap : FVec Ideal S4 .f32 := broadcastInDim S4 ![] (by decide) (constant (F := Ideal) S0 .f32 0x3F4CCCCD#32)
  let a : FVec Ideal S4 .f32 :=
    minimumf (subf (mulf two (subf one (Host.divf (addf bnd eps) (addf Sa eps)))) one) cap
  let num : FVec Ideal S4 .f32 := addf (subf (addf Z Sb) (mulf two I)) eps
  let dn : FVec Ideal S4 .f32 := addf (subf (addf Z Sb) (mulf (addf one a) I)) eps
  Host.divf (Host.reduceAdd (Host.divf num dn) (constant (F := Ideal) S0 .f32 0x00000000#32) (axes := [0]) (by decide) (by decide))
    (constant (F := Ideal) S0 .f32 0x40800000#32)

/-- THE RESULT both programs end with. -/
def result (X : SX.Idx → EReal) (T : ST.Idx → BitVec 32) : FVec Ideal S0 .f32 :=
  tail (subf (Sv T) (Icv T)) (Sv T) (Sv T) (Iv X T) (Zv X)

end Cert.Spec

end
-- ==== Proof.RefPix.lean ====
/-
  The counting mathematics of the boundary term.

  The reference forms, at every pixel and class, the five-point sum of the one-hot over the pixel and its four
  neighbours (a neighbour outside the image contributing 0), multiplies it by the pixel's own one-hot, replaces the
  value 5 by 0, and counts the pixels where what is left is not 0. With one-hot values in {0, 1} the product is 5
  exactly when the pixel and its four neighbours all carry the class, so the count is the number of pixels of the class
  that are NOT inner: the region size minus the inner count. Counts are formed in 32-bit words; 16·512·512 = 2^22
  ones cannot wrap.
-/
import proofs.«103653_j11020886082202_2_alg».proof.Proof.Spec
import Mathlib.Data.BitVec

noncomputable section

open scoped BigOperators

namespace Cert.RefPix

open Idealize.ShloMosaic Idealize.ShloMosaic.ValueIdx Cert.Spec

/-- The words of 0 and of 5. -/
abbrev zeroW : EReal := Ideal.ofBits .f32 0x00000000#32
abbrev fiveW : EReal := Ideal.ofBits .f32 0x40A00000#32

/-- 1 where `p` holds, else 0. -/
def ind (p : Prop) [Decidable p] : EReal := if p then 1 else 0

/-- The bit the reference forms at a pixel from its five one-hot values: centre `a`, then up, down, left, right. -/
def bndWord (a u d l r : EReal) : BitVec 1 :=
  Ideal.cmp .une
    (Scalar.select (Ideal.cmp .oeq (((((a + u) + d) + l) + r) * a) fiveW) zeroW (((((a + u) + d) + l) + r) * a)) zeroW

section Labels

variable (T : ST.Idx → BitVec 32)

/-- The pixel carries class `c`. -/
def lab (b : Fin 16) (c : Fin 4) (i j : Fin 512) : Prop := T (ix3 b i j) = BitVec.ofNat 32 c.val
/-- The neighbour above exists and carries class `c`; likewise below, left, right. -/
def nbU (b : Fin 16) (c : Fin 4) (i j : Fin 512) : Prop :=
  if h : i.val = 0 then False else T (ix3 b ⟨i.val - 1, by omega⟩ j) = BitVec.ofNat 32 c.val
def nbD (b : Fin 16) (c : Fin 4) (i j : Fin 512) : Prop :=
  if h : i.val = 511 then False else T (ix3 b ⟨i.val + 1, by omega⟩ j) = BitVec.ofNat 32 c.val
def nbL (b : Fin 16) (c : Fin 4) (i j : Fin 512) : Prop :=
  if h : j.val = 0 then False else T (ix3 b i ⟨j.val - 1, by omega⟩) = BitVec.ofNat 32 c.val
def nbR (b : Fin 16) (c : Fin 4) (i j : Fin 512) : Prop :=
  if h : j.val = 511 then False else T (ix3 b i ⟨j.val + 1, by omega⟩) = BitVec.ofNat 32 c.val

instance (b : Fin 16) (c : Fin 4) (i j : Fin 512) : Decidable (lab T b c i j) := by unfold lab; infer_instance
instance (b : Fin 16) (c : Fin 4) (i j : Fin 512) : Decidable (nbU T b c i j) := by unfold nbU; infer_instance
instance (b : Fin 16) (c : Fin 4) (i j : Fin 512) : Decidable (nbD T b c i j) := by unfold nbD; infer_instance
instance (b : Fin 16) (c : Fin 4) (i j : Fin 512) : Decidable (nbL T b c i j) := by unfold nbL; infer_instance
instance (b : Fin 16) (c : Fin 4) (i j : Fin 512) : Decidable (nbR T b c i j) := by unfold nbR; infer_instance

/-- A boundary pixel of class `c`: it carries the class and some neighbour is outside the image or of another class. -/
def bndP (b : Fin 16) (c : Fin 4) (i j : Fin 512) : Prop :=
  lab T b c i j ∧ ¬(nbU T b c i j ∧ nbD T b c i j ∧ nbL T b c i j ∧ nbR T b c i j)

instance (b : Fin 16) (c : Fin 4) (i j : Fin 512) : Decidable (bndP T b c i j) := by unfold bndP; infer_instance

/-- The one-hot is the indicator of the label. -/
theorem oh_eq_ind (b : Fin 16) (c : Fin 4) (i j : Fin 512) : oh T b c i j = ind (lab T b c i j) := rfl

end Labels

/-! ### Words and indicators as real numbers -/

/-- The word of 5 is the real 5. -/
theorem fiveW_eq : fiveW = ((5 : ℝ) : EReal) := by
  simp [Ideal.ofBits, Ideal.ieee, -EReal.coe_mul]; norm_num

/-- The word of 0 is the real 0. -/
theorem zeroW_eq : zeroW = ((0 : ℝ) : EReal) := by
  rw [EReal.coe_zero]; exact Ideal.ofBits_zero_f32

/-- The real-valued indicator. -/
def indR (p : Prop) [Decidable p] : ℝ := if p then 1 else 0

/-- The indicator is the coercion of the real-valued indicator. -/
theorem ind_eq_coe (p : Prop) [Decidable p] : ind p = ((indR p : ℝ) : EReal) := by
  unfold ind indR; split_ifs <;> simp

/-- On real operands the reference's bit says: the five-point product is neither 5 nor 0. -/
theorem bndWord_coe (a u d l r : ℝ) :
    bndWord (a : EReal) (u : EReal) (d : EReal) (l : EReal) (r : EReal)
      = BitVec.ofBool (decide ((a + u + d + l + r) * a ≠ 5 ∧ (a + u + d + l + r) * a ≠ 0)) := by
  unfold bndWord
  rw [fiveW_eq, zeroW_eq]
  simp only [← EReal.coe_add, ← EReal.coe_mul]
  generalize (a + u + d + l + r) * a = v
  simp only [Ideal.cmp, Scalar.select]
  by_cases h5 : v = 5
  · simp [h5]
  · by_cases h0 : v = 0 <;> simp [h5, h0, EReal.coe_eq_coe_iff]

/-- From indicator values the reference's bit is the boundary condition. -/
theorem bndWord_ind (pa pu pd pl pr : Prop) [Decidable pa] [Decidable pu] [Decidable pd] [Decidable pl] [Decidable pr] :
    bndWord (ind pa) (ind pu) (ind pd) (ind pl) (ind pr) = BitVec.ofBool (decide (pa ∧ ¬(pu ∧ pd ∧ pl ∧ pr))) := by
  simp only [ind_eq_coe, bndWord_coe]
  congr 1
  rw [decide_eq_decide]
  by_cases ha : pa <;> by_cases hu : pu <;> by_cases hd : pd <;> by_cases hl : pl <;> by_cases hr : pr <;>
    simp [indR, ha, hu, hd, hl, hr] <;> norm_num

/-- An indicator differs from the word of 0 exactly where its condition holds. -/
theorem regWord_ind (p : Prop) [Decidable p] : Ideal.cmp .une (ind p) zeroW = BitVec.ofBool (decide p) := by
  by_cases h : p <;> simp [ind, Ideal.cmp, h]

/-! ### Counting ones in 32-bit words and in the extended reals -/

/-- A sum of coerced reals is the coerced sum. -/
theorem coe_sum {ι : Type} (s : Finset ι) (f : ι → ℝ) :
    ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A sum of 0/1 words over fewer than 2^32 indices counts the ones. -/
theorem toNat_sum_ofBool {ι : Type} [DecidableEq ι] (s : Finset ι) (P : ι → Prop) [DecidablePred P]
    (h : s.card < 2 ^ 32) :
    (∑ x ∈ s, (BitVec.ofBool (decide (P x))).setWidth 32 : BitVec 32).toNat = (s.filter P).card := by
  induction s using Finset.induction_on with
  | empty => simp
  | insert a s ha ih =>
    rw [Finset.card_insert_of_notMem ha] at h
    have hle : (s.filter P).card ≤ s.card := Finset.card_filter_le _ _
    rw [Finset.sum_insert ha, BitVec.toNat_add, ih (by omega), Finset.filter_insert]
    by_cases hp : P a
    · have hna : a ∉ s.filter P := fun hm => ha (Finset.mem_of_mem_filter a hm)
      rw [if_pos hp, Finset.card_insert_of_notMem hna]
      simp [hp]
      omega
    · rw [if_neg hp]
      simp [hp]
      omega

/-- A triple sum over image, row and column is one sum over the triples. -/
theorem sum3 {M : Type} [AddCommMonoid M] (f : Fin 16 → Fin 512 → Fin 512 → M) :
    ∑ b, ∑ i, ∑ j, f b i j = ∑ x : Fin 16 × Fin 512 × Fin 512, f x.1 x.2.1 x.2.2 := by
  simp only [Fintype.sum_prod_type]

/-- A triple sum of coerced reals is the coerced triple sum. -/
theorem coe_sum3 (f : Fin 16 → Fin 512 → Fin 512 → ℝ) :
    ∑ b, ∑ i, ∑ j, ((f b i j : ℝ) : EReal) = ((∑ b, ∑ i, ∑ j, f b i j : ℝ) : EReal) := by
  simp only [coe_sum]

/-- The 32-bit count of a condition over every image and pixel, read as a number, is the sum of its indicator:
    2^22 ones do not wrap. -/
theorem count_word (P : Fin 16 → Fin 512 → Fin 512 → Prop) [∀ b i j, Decidable (P b i j)] :
    ((((∑ b : Fin 16, ∑ i : Fin 512, ∑ j : Fin 512,
        (BitVec.ofBool (decide (P b i j))).setWidth 32 : BitVec 32).toInt : ℝ) : EReal))
      = ∑ b : Fin 16, ∑ i : Fin 512, ∑ j : Fin 512, ind (P b i j) := by
  rw [sum3 (fun b i j => (BitVec.ofBool (decide (P b i j))).setWidth 32), sum3 (fun b i j => ind (P b i j))]
  have hcard : (Finset.univ : Finset (Fin 16 × Fin 512 × Fin 512)).card = 4194304 := by simp
  have hn := toNat_sum_ofBool Finset.univ (fun x : Fin 16 × Fin 512 × Fin 512 => P x.1 x.2.1 x.2.2)
    (by rw [hcard]; norm_num)
  have hle : (Finset.univ.filter (fun x : Fin 16 × Fin 512 × Fin 512 => P x.1 x.2.1 x.2.2)).card ≤ 4194304 :=
    hcard ▸ Finset.card_filter_le _ _
  rw [BitVec.toInt_eq_toNat_of_lt (by rw [hn]; omega), hn]
  simp only [ind_eq_coe]
  rw [coe_sum]
  simp only [indR, Finset.sum_boole]
  push_cast
  rfl

/-! ### The boundary condition against the inner condition -/

/-- The word of -1 is the word of no class. -/
theorem neg_one_ne (c : Fin 4) : (4294967295#32 : BitVec 32) ≠ BitVec.ofNat 32 c.val := by
  revert c; decide

section Neighbours

variable (T : ST.Idx → BitVec 32) (b : Fin 16) (c : Fin 4) (i j : Fin 512)

/-- At a pixel of class `c`, the neighbour above exists and carries `c` exactly when the label above (-1 outside
    the image) is the pixel's own; likewise below, left and right. -/
theorem nbU_iff (hl : lab T b c i j) : nbU T b c i j ↔ up T b i j = T (ix3 b i j) := by
  unfold lab at hl; unfold nbU up; rw [hl]
  split_ifs with h
  · simp [neg_one_ne c]
  · exact Iff.rfl
theorem nbD_iff (hl : lab T b c i j) : nbD T b c i j ↔ down T b i j = T (ix3 b i j) := by
  unfold lab at hl; unfold nbD down; rw [hl]
  split_ifs with h
  · simp [neg_one_ne c]
  · exact Iff.rfl
theorem nbL_iff (hl : lab T b c i j) : nbL T b c i j ↔ left T b i j = T (ix3 b i j) := by
  unfold lab at hl; unfold nbL left; rw [hl]
  split_ifs with h
  · simp [neg_one_ne c]
  · exact Iff.rfl
theorem nbR_iff (hl : lab T b c i j) : nbR T b c i j ↔ right T b i j = T (ix3 b i j) := by
  unfold lab at hl; unfold nbR right; rw [hl]
  split_ifs with h
  · simp [neg_one_ne c]
  · exact Iff.rfl

/-- A boundary pixel of a class is a pixel of the class that is not inner. -/
theorem bndP_iff : bndP T b c i j ↔ lab T b c i j ∧ ¬Spec.Inner T b i j := by
  unfold bndP Spec.Inner
  constructor
  · rintro ⟨hl, hn⟩
    exact ⟨hl, by rwa [nbU_iff T b c i j hl, nbD_iff T b c i j hl, nbL_iff T b c i j hl, nbR_iff T b c i j hl] at hn⟩
  · rintro ⟨hl, hn⟩
    exact ⟨hl, by rwa [nbU_iff T b c i j hl, nbD_iff T b c i j hl, nbL_iff T b c i j hl, nbR_iff T b c i j hl]⟩

/-- Pointwise, over the reals: boundary = one-hot minus one-hot times inner. -/
theorem bnd_point :
    indR (bndP T b c i j) = indR (lab T b c i j) - indR (lab T b c i j) * indR (Spec.Inner T b i j) := by
  have hb := bndP_iff T b c i j
  by_cases hl : lab T b c i j <;> by_cases hi : Spec.Inner T b i j <;> simp [indR, hb, hl, hi]

end Neighbours

/-- The 32-bit count of the boundary pixels of a class, read as a number, is the region size minus the inner count. -/
theorem count_bnd (T : ST.Idx → BitVec 32) (c : Fin 4) :
    ((((∑ b : Fin 16, ∑ i : Fin 512, ∑ j : Fin 512,
        (BitVec.ofBool (decide (bndP T b c i j))).setWidth 32 : BitVec 32).toInt : ℝ) : EReal))
      = Stot T c - Ictot T c := by
  rw [count_word (fun b i j => bndP T b c i j)]
  have h1 : ∀ b i j, oh T b c i j = ((indR (lab T b c i j) : ℝ) : EReal) := fun b i j => ind_eq_coe _
  have h2 : ∀ b i j, inr T b i j = ((indR (Spec.Inner T b i j) : ℝ) : EReal) := fun b i j => ind_eq_coe _
  simp only [Stot, Ictot, tot, h1, h2, ind_eq_coe, ← EReal.coe_mul, coe_sum3, ← EReal.coe_sub,
    ← Finset.sum_sub_distrib, bnd_point]

/-- The 32-bit count of the pixels of a class, read as a number, is the region size. -/
theorem count_reg (T : ST.Idx → BitVec 32) (c : Fin 4) :
    ((((∑ b : Fin 16, ∑ i : Fin 512, ∑ j : Fin 512,
        (BitVec.ofBool (decide (lab T b c i j))).setWidth 32 : BitVec 32).toInt : ℝ) : EReal))
      = Stot T c := by
  rw [count_word (fun b i j => lab T b c i j)]
  rfl

/-- The one-hot squared sums to the region size. -/
theorem ysum (T : ST.Idx → BitVec 32) (c : Fin 4) :
    tot (fun b c i j => oh T b c i j * oh T b c i j) c = Stot T c := by
  have h : ∀ b i j, oh T b c i j * oh T b c i j = oh T b c i j := by
    intro b i j; unfold oh; split_ifs <;> simp
  simp only [Stot, tot, h]

end Cert.RefPix

end
-- ==== Proof.RefReduce.lean ====
/-
  Reductions over the image, row and column axes of a [16, 4, 512, 512] array into a vector of four, read as triple
  sums; and a zero-padded array read at an index.

  The indices of the array that reduce to class `c` are exactly the indices (b, c, i, j), so a sum over them is the
  triple sum over image, row and column. A float add-reduction from the word of 0 is that sum, and an integer one from
  the zero word is that sum in 32-bit words.
-/
import Idealize.ShloMosaic.Lib.ValueIdx
import Idealize.ShloMosaic.Lib.KernelVsHost
import Idealize.ShloMosaic.PureOps.Ideal.Laws
import Idealize.ShloMosaic.PureOps.Reduce
import Mathlib.Data.BitVec

noncomputable section

open scoped BigOperators

namespace Cert.RefValue

open Idealize.ShloMosaic Idealize.ShloMosaic.ValueIdx

abbrev SX : Shape := ⟨4, ![16, 4, 512, 512]⟩
abbrev S4 : Shape := ⟨1, ![4]⟩

/-- An index reduces to class `c` exactly when its class coordinate is `c`. -/
theorem drop_eq_iff (h : SX.ReducesTo [0, 2, 3] S4) (i : SX.Idx) (c : Fin 4) : h.drop i = ix1 c ↔ i 1 = c := by
  constructor
  · intro e
    have e' := congrArg (fun j : S4.Idx => (j 0).val) e
    simp only at e'
    rw [h.drop_apply_val_of_eq i 0 1] at e'
    exact Fin.ext e'
  · intro e
    funext a
    match a with
    | ⟨0, _⟩ =>
      apply Fin.ext
      show (h.drop i 0).val = c.val
      rw [h.drop_apply_val_of_eq i 0 1, e]

/-- A sum over the indices that reduce to class `c` is the triple sum over image, row and column. -/
theorem sum_filter_drop {M : Type*} [AddCommMonoid M] (h : SX.ReducesTo [0, 2, 3] S4) (f : SX.Idx → M) (c : Fin 4) :
    ∑ i ∈ Finset.univ.filter (fun i => h.drop i = ix1 c), f i
      = ∑ b : Fin 16, ∑ i : Fin 512, ∑ j : Fin 512, f (ix4 b c i j) := by
  have e : ∑ b : Fin 16, ∑ i : Fin 512, ∑ j : Fin 512, f (ix4 b c i j)
      = ∑ p : Fin 16 × Fin 512 × Fin 512, f (ix4 p.1 c p.2.1 p.2.2) := by
    simp only [Fintype.sum_prod_type]
  rw [e]
  refine Finset.sum_nbij' (fun i => ((i 0, i 2, i 3) : Fin 16 × Fin 512 × Fin 512)) (fun p => ix4 p.1 c p.2.1 p.2.2) ?_ ?_ ?_ ?_ ?_
  · intro i _; exact Finset.mem_univ _
  · intro p _; exact Finset.mem_filter.2 ⟨Finset.mem_univ _, (drop_eq_iff h _ c).2 rfl⟩
  · intro i hi
    have hc := (drop_eq_iff h i c).1 (Finset.mem_filter.1 hi).2
    rw [← hc]; exact (eq_ix4 i).symm
  · intro p _; rfl
  · intro i hi
    have hc := (drop_eq_iff h i c).1 (Finset.mem_filter.1 hi).2
    rw [← hc]; exact congrArg f (eq_ix4 i)

/-- A float add-reduction over image, row and column from the word of 0 is the triple sum. -/
theorem reduceAdd_apply (h : SX.ReducesTo [0, 2, 3] S4) {u : Shape} (hu : 0 < u.numel) (x : FVec Ideal SX .f32)
    (init : FVec Ideal u .f32) (h0 : init (Shape.Idx.first hu) = 0) (c : Fin 4) :
    Host.reduceAdd x init h hu (ix1 c) = ∑ b : Fin 16, ∑ i : Fin 512, ∑ j : Fin 512, x (ix4 b c i j) := by
  show Ideal.hostReduceAdd h x (init (Shape.Idx.first hu)) (ix1 c) = _
  unfold Ideal.hostReduceAdd
  rw [h0, zero_add]
  exact sum_filter_drop h x c

/-- A fold of 32-bit addition from the zero word is the sum in 32-bit words. -/
theorem fold_addi_eq_sum {ι : Type*} (s : Finset ι) (x : ι → BitVec 32) :
    s.fold IntOp.addi 0#32 x = ∑ i ∈ s, x i := by
  induction s using Finset.cons_induction with
  | empty => simp
  | cons a S ha ih => rw [Finset.fold_cons, Finset.sum_cons, ih]; rfl

/-- An integer add-reduction over image, row and column from the zero word is the triple sum in 32-bit words. -/
theorem reduceAddi_apply (h : SX.ReducesTo [0, 2, 3] S4) {u : Shape} (hu : 0 < u.numel) (x : IVec SX 32)
    (init : IVec u 32) (h0 : init (Shape.Idx.first hu) = 0#32) (c : Fin 4) :
    Host.reduce IntOp.addi x init h hu (ix1 c) = ∑ b : Fin 16, ∑ i : Fin 512, ∑ j : Fin 512, x (ix4 b c i j) := by
  rw [Host.reduce_eq_fold, h0, fold_addi_eq_sum]
  exact sum_filter_drop h x c

end Cert.RefValue

end
-- ==== Proof.RefSoft.lean ====
/-
  The reference's softmax, read at an index: at image `b`, class `c`, row `i`, column `j` it is the specification's
  score `pr`.

  The reference takes the maximum of the pixel's four logits folded from the word of -∞, then once more against that
  word, which changes nothing; subtracts it, exponentiates, sums the four exponentials from the word of 0, and divides.
-/
import proofs.«103653_j11020886082202_2_alg».proof.Proof.RefRead
import proofs.«103653_j11020886082202_2_alg».proof.Proof.Spec
import Idealize.ShloMosaic.Lib.ValueIdx
import Idealize.ShloMosaic.PureOps.Ideal.Laws
import Idealize.ShloMosaic.PureOps.Reduce

noncomputable section

open scoped BigOperators

namespace Cert.RefValue

open Idealize.ShloMosaic Idealize.ShloMosaic.ValueIdx Cert.ReferenceIdeal Cert.ReferenceIdeal.Gen
  Cert.ReferenceIdeal.ReadP Cert.Spec

variable (X : Cert.Spec.SX.Idx → EReal) (b : Fin 16) (c : Fin 4) (i j : Fin 512)

/-- The two broadcasts from [16, 512, 512] to [16, 4, 512, 512] read a pixel's value at every class. -/
theorem idx_v3_v4 : idx_main_v3 (idx_main_v4 (ix4 b c i j)) = ix3 b i j := by
  funext a; match a with | ⟨0, _⟩ => rfl | ⟨1, _⟩ => rfl | ⟨2, _⟩ => rfl

theorem idx_v8_v9 : idx_main_v8 (idx_main_v9 (ix4 b c i j)) = ix3 b i j := by
  funext a; match a with | ⟨0, _⟩ => rfl | ⟨1, _⟩ => rfl | ⟨2, _⟩ => rfl

/-- The maximum over the class axis is the specification's `mx`. -/
theorem v0_at : val_main_v0 (F := Ideal) X (ix3 b i j) = mx X b i j := by
  have h : S16x4x512x512.Reduces [1] S16x512x512 := by decide
  unfold val_main_v0
  rw [Host.reduce_eq_fold_single (FloatOps.maximumf (F := Ideal) (φ := .f32)) X _ _ h]
  have hf : (X ∘ h.lift (ix3 b i j)) = fun k : Fin 4 => X (ix4 b k i j) :=
    funext fun k => congrArg X (funext fun a => Fin.ext (by
      match a with | ⟨0, _⟩ => rfl | ⟨1, _⟩ => rfl | ⟨2, _⟩ => rfl | ⟨3, _⟩ => rfl))
  rw [hf]
  rfl

/-- Taking the maximum with the word of -∞ once more changes nothing. -/
theorem v2_at : val_main_v2 (F := Ideal) X (ix3 b i j) = mx X b i j := by
  rw [val_main_v2_apply, val_main_v1_apply, val_main_cst_0_apply, v0_at]
  show max (Ideal.ofBits .f32 0xFF800000#32) (mx X b i j) = mx X b i j
  unfold mx
  exact max_eq_right ((Finset.le_fold_max _).2 (Or.inl le_rfl))

theorem v4_at : val_main_v4 (F := Ideal) X (ix4 b c i j) = mx X b i j := by
  rw [val_main_v4_apply, val_main_v3_apply, idx_v3_v4, v2_at]

/-- The shifted exponential. -/
theorem v6_at : val_main_v6 (F := Ideal) X (ix4 b c i j) = ex X b c i j := by
  rw [val_main_v6_apply, val_main_v5_apply, v4_at]
  rfl

/-- The sum of the four exponentials. -/
theorem v7_at : val_main_v7 (F := Ideal) X (ix3 b i j) = den X b i j := by
  rw [val_main_v7_apply, val_main_cst_1_apply]
  show Ideal.ofBits .f32 0x00000000#32 + _ = _
  rw [Ideal.ofBits_zero_f32, zero_add]
  unfold den
  refine Finset.sum_congr rfl fun k _ => ?_
  have e : idx_main_v7 (ix3 b i j) k = ix4 b k i j := by
    funext a; match a with | ⟨0, _⟩ => rfl | ⟨1, _⟩ => rfl | ⟨2, _⟩ => rfl | ⟨3, _⟩ => rfl
  rw [e, v6_at]

theorem v9_at : val_main_v9 (F := Ideal) X (ix4 b c i j) = den X b i j := by
  rw [val_main_v9_apply, val_main_v8_apply, idx_v8_v9, v7_at]

/-- The softmax score. -/
theorem v10_at : val_main_v10 (F := Ideal) X (ix4 b c i j) = pr X b c i j := by
  rw [val_main_v10_apply, v6_at, v9_at]
  rfl

end Cert.RefValue

end
-- ==== Proof.RefHot.lean ====
/-
  The reference's one-hot, its zero-padded copy, the five shifted reads of it, and the two bits the reference counts,
  each read at image `b`, class `c`, row `i`, column `j`.

  The one-hot is the indicator that the pixel's label is `c`. The padded copy has one ring of zeros around each image,
  so the reads shifted by one row or one column are the indicator of the neighbour's label where the neighbour exists
  and 0 where it does not. The boundary bit is then the bit of the counting lemmas, and the region bit says that the
  one-hot is not 0.
-/
import proofs.«103653_j11020886082202_2_alg».proof.Proof.RefRead
import proofs.«103653_j11020886082202_2_alg».proof.Proof.RefPix
import Idealize.ShloMosaic.Lib.ValueIdx
import Idealize.ShloMosaic.Lib.KernelVsHost
import Idealize.ShloMosaic.PureOps.Ideal.Laws

noncomputable section

open scoped BigOperators

namespace Cert.RefValue

open Idealize.ShloMosaic Idealize.ShloMosaic.ValueIdx Cert.ReferenceIdeal Cert.ReferenceIdeal.Gen
  Cert.ReferenceIdeal.ReadP Cert.Spec Cert.RefPix

/-- Indicators of equivalent conditions are equal. -/
theorem ind_congr {p q : Prop} [Decidable p] [Decidable q] (h : p ↔ q) : ind p = ind q := by
  unfold ind
  by_cases hp : p
  · rw [if_pos hp, if_pos (h.mp hp)]
  · rw [if_neg hp, if_neg (mt h.mpr hp)]

/-- The indicator of a condition that fails is 0. -/
theorem ind_of_not {p : Prop} [Decidable p] (h : ¬p) : ind p = 0 := by
  unfold ind; rw [if_neg h]

variable (T : Cert.Spec.ST.Idx → BitVec 32) (b : Fin 16) (c : Fin 4) (i j : Fin 512)

/-- The label, broadcast along the class axis. -/
theorem v14_at : val_main_v14 (F := Ideal) T (ix4 b c i j) = T (ix3 b i j) := by
  rw [val_main_v14_apply, val_main_v11_apply]
  exact congrArg T (funext fun a => by match a with | ⟨0, _⟩ => rfl | ⟨1, _⟩ => rfl | ⟨2, _⟩ => rfl)

/-- The class number, broadcast along image, row and column. -/
theorem v15_at : val_main_v15 (F := Ideal) (ix4 b c i j) = BitVec.ofNat 32 c.val := by
  rw [val_main_v15_apply, val_main_v13_apply, val_main_v12_apply]

/-- The one-hot. -/
theorem v17_at : val_main_v17 (F := Ideal) T (ix4 b c i j) = oh T b c i j := by
  rw [val_main_v17_apply, val_main_v16_apply, v14_at, v15_at]
  show (((BitVec.ofBool (T (ix3 b i j) == BitVec.ofNat 32 c.val)).toNat : ℝ) : EReal) = _
  unfold oh
  by_cases h : T (ix3 b i j) = BitVec.ofNat 32 c.val
  · rw [if_pos h, beq_iff_eq.2 h]; simp
  · rw [if_neg h, beq_eq_false_iff_ne.2 h]; simp

/-- The padded copy inside the image is the one-hot. -/
theorem pad_in (r s : Fin 514) (hr : r.val = 1 + i.val) (hs : s.val = 1 + j.val) :
    val_main_v18 (F := Ideal) T (ix4 b c r s) = oh T b c i j := by
  unfold val_main_v18
  refine (pad_apply_of_inside _ _ _ _ _ _ _ (ix4 b c r s) (ix4 b c i j) (fun a => ?_)).trans (v17_at T b c i j)
  match a with
  | ⟨0, _⟩ => show b.val = 0 + b.val * (0 + 1); omega
  | ⟨1, _⟩ => show c.val = 0 + c.val * (0 + 1); omega
  | ⟨2, _⟩ => show r.val = 1 + i.val * (0 + 1); omega
  | ⟨3, _⟩ => show s.val = 1 + j.val * (0 + 1); omega

/-- The padding value is 0. -/
theorem pad_value : val_main_call0_v0 (F := Ideal) (Shape.Idx.first Facts₀.h_S_) = 0 := by
  show ((((0#32 : BitVec 32).toInt : ℝ)) : EReal) = 0
  simp

/-- The padded copy on the first and last padded row is 0. -/
theorem pad_out_row (r s : Fin 514) (hr : r.val = 0 ∨ r.val = 513) :
    val_main_v18 (F := Ideal) T (ix4 b c r s) = 0 := by
  unfold val_main_v18
  refine (pad_apply_of_not_inside _ _ _ _ _ _ _ (ix4 b c r s) (2 : Fin 4) ?_).trans pad_value
  show ¬(1 ≤ r.val ∧ (r.val - 1) % 1 = 0 ∧ (r.val - 1) / 1 < 512)
  omega

/-- The padded copy on the first and last padded column is 0. -/
theorem pad_out_col (r s : Fin 514) (hs : s.val = 0 ∨ s.val = 513) :
    val_main_v18 (F := Ideal) T (ix4 b c r s) = 0 := by
  unfold val_main_v18
  refine (pad_apply_of_not_inside _ _ _ _ _ _ _ (ix4 b c r s) (3 : Fin 4) ?_).trans pad_value
  show ¬(1 ≤ s.val ∧ (s.val - 1) % 1 = 0 ∧ (s.val - 1) / 1 < 512)
  omega

/-- The centre read is the one-hot. -/
theorem v19_at : val_main_v19 (F := Ideal) T (ix4 b c i j) = ind (lab T b c i j) := by
  have e : idx_main_v19 (ix4 b c i j)
      = ix4 b c (⟨1 + i.val, by have := i.isLt; omega⟩ : Fin 514) (⟨1 + j.val, by have := j.isLt; omega⟩ : Fin 514) := by
    funext a; match a with | ⟨0, _⟩ => rfl | ⟨1, _⟩ => rfl | ⟨2, _⟩ => rfl | ⟨3, _⟩ => rfl
  rw [val_main_v19_apply, e, pad_in T b c i j _ _ rfl rfl, oh_eq_ind]

/-- The read one row up is the indicator of the neighbour above. -/
theorem v20_at : val_main_v20 (F := Ideal) T (ix4 b c i j) = ind (nbU T b c i j) := by
  have e : idx_main_v20 (ix4 b c i j)
      = ix4 b c (⟨i.val, by have := i.isLt; omega⟩ : Fin 514) (⟨1 + j.val, by have := j.isLt; omega⟩ : Fin 514) := by
    funext a; match a with | ⟨0, _⟩ => rfl | ⟨1, _⟩ => rfl | ⟨2, _⟩ => rfl | ⟨3, _⟩ => rfl
  rw [val_main_v20_apply, e]
  by_cases h0 : i.val = 0
  · rw [pad_out_row T b c _ _ (Or.inl h0)]
    refine (ind_of_not ?_).symm
    unfold nbU; rw [dif_pos h0]; exact not_false
  · have hi := i.isLt
    rw [pad_in T b c ⟨i.val - 1, by omega⟩ j _ _ (by show i.val = 1 + (i.val - 1); omega) rfl, oh_eq_ind]
    refine ind_congr ?_
    unfold nbU lab; rw [dif_neg h0]

/-- The read one row down is the indicator of the neighbour below. -/
theorem v22_at : val_main_v22 (F := Ideal) T (ix4 b c i j) = ind (nbD T b c i j) := by
  have e : idx_main_v22 (ix4 b c i j)
      = ix4 b c (⟨2 + i.val, by have := i.isLt; omega⟩ : Fin 514) (⟨1 + j.val, by have := j.isLt; omega⟩ : Fin 514) := by
    funext a; match a with | ⟨0, _⟩ => rfl | ⟨1, _⟩ => rfl | ⟨2, _⟩ => rfl | ⟨3, _⟩ => rfl
  rw [val_main_v22_apply, e]
  by_cases h0 : i.val = 511
  · rw [pad_out_row T b c _ _ (Or.inr (by show 2 + i.val = 513; omega))]
    refine (ind_of_not ?_).symm
    unfold nbD; rw [dif_pos h0]; exact not_false
  · have hi := i.isLt
    rw [pad_in T b c ⟨i.val + 1, by omega⟩ j _ _ (by show 2 + i.val = 1 + (i.val + 1); omega) rfl, oh_eq_ind]
    refine ind_congr ?_
    unfold nbD lab; rw [dif_neg h0]

/-- The read one column left is the indicator of the neighbour on the left. -/
theorem v24_at : val_main_v24 (F := Ideal) T (ix4 b c i j) = ind (nbL T b c i j) := by
  have e : idx_main_v24 (ix4 b c i j)
      = ix4 b c (⟨1 + i.val, by have := i.isLt; omega⟩ : Fin 514) (⟨j.val, by have := j.isLt; omega⟩ : Fin 514) := by
    funext a; match a with | ⟨0, _⟩ => rfl | ⟨1, _⟩ => rfl | ⟨2, _⟩ => rfl | ⟨3, _⟩ => rfl
  rw [val_main_v24_apply, e]
  by_cases h0 : j.val = 0
  · rw [pad_out_col T b c _ _ (Or.inl h0)]
    refine (ind_of_not ?_).symm
    unfold nbL; rw [dif_pos h0]; exact not_false
  · have hj := j.isLt
    rw [pad_in T b c i ⟨j.val - 1, by omega⟩ _ _ rfl (by show j.val = 1 + (j.val - 1); omega), oh_eq_ind]
    refine ind_congr ?_
    unfold nbL lab; rw [dif_neg h0]

/-- The read one column right is the indicator of the neighbour on the right. -/
theorem v26_at : val_main_v26 (F := Ideal) T (ix4 b c i j) = ind (nbR T b c i j) := by
  have e : idx_main_v26 (ix4 b c i j)
      = ix4 b c (⟨1 + i.val, by have := i.isLt; omega⟩ : Fin 514) (⟨2 + j.val, by have := j.isLt; omega⟩ : Fin 514) := by
    funext a; match a with | ⟨0, _⟩ => rfl | ⟨1, _⟩ => rfl | ⟨2, _⟩ => rfl | ⟨3, _⟩ => rfl
  rw [val_main_v26_apply, e]
  by_cases h0 : j.val = 511
  · rw [pad_out_col T b c _ _ (Or.inr (by show 2 + j.val = 513; omega))]
    refine (ind_of_not ?_).symm
    unfold nbR; rw [dif_pos h0]; exact not_false
  · have hj := j.isLt
    rw [pad_in T b c i ⟨j.val + 1, by omega⟩ _ _ rfl (by show 2 + j.val = 1 + (j.val + 1); omega), oh_eq_ind]
    refine ind_congr ?_
    unfold nbR lab; rw [dif_neg h0]

/-- The boundary bit the reference counts. -/
theorem v33_at : val_main_v33 (F := Ideal) T (ix4 b c i j) = BitVec.ofBool (decide (bndP T b c i j)) := by
  rw [val_main_v33_apply, val_main_v31_apply, val_main_v30_apply, val_main_v28_apply, val_main_v27_apply,
    val_main_v25_apply, val_main_v23_apply, val_main_v21_apply, v19_at, v20_at, v22_at, v24_at, v26_at, v17_at,
    val_main_v29_apply, val_main_cst_2_apply, val_main_v32_apply, val_main_cst_4_apply, val_main_call1_v1_apply,
    val_main_call1_v0_apply, val_main_cst_3_apply, oh_eq_ind]
  refine Eq.trans ?_ ((bndWord_ind (lab T b c i j) (nbU T b c i j) (nbD T b c i j) (nbL T b c i j) (nbR T b c i j)).trans ?_)
  · rfl
  · exact congrArg BitVec.ofBool (decide_eq_decide.mpr Iff.rfl)

/-- The region bit the reference counts. -/
theorem v38_at : val_main_v38 (F := Ideal) T (ix4 b c i j) = BitVec.ofBool (decide (lab T b c i j)) := by
  rw [val_main_v38_apply, v17_at, val_main_v37_apply, val_main_cst_6_apply, oh_eq_ind]
  exact regWord_ind (lab T b c i j)

end Cert.RefValue

end
-- ==== Proof.RefValue.lean ====
/-
  The reference's result is the specification's function of the two argument arrays.

  The five vectors of four the closing arithmetic starts from are: the boundary count (the region size minus the inner
  count, by the counting lemmas), the region size counted in 32-bit words, the region size as the sum of the squared
  one-hot, the intersection and the squared score mass. The closing arithmetic is then, operation by operation, the
  specification's `tail`.
-/
import proofs.«103653_j11020886082202_2_alg».proof.Proof.RefRead
import proofs.«103653_j11020886082202_2_alg».proof.Proof.RefPix
import proofs.«103653_j11020886082202_2_alg».proof.Proof.RefReduce
import proofs.«103653_j11020886082202_2_alg».proof.Proof.RefSoft
import proofs.«103653_j11020886082202_2_alg».proof.Proof.RefHot
import Idealize.ShloMosaic.Lib.ValueIdx
import Idealize.ShloMosaic.Lib.Pipeline.Value
import Idealize.ShloMosaic.Lib.KernelVsHost
import Idealize.ShloMosaic.PureOps.Ideal.Laws
import Idealize.ShloMosaic.PureOps.Reduce

noncomputable section

open scoped BigOperators

namespace Cert.RefValue

open Idealize.ShloMosaic Idealize.ShloMosaic.ValueIdx Cert.ReferenceIdeal Cert.ReferenceIdeal.Gen
  Cert.ReferenceIdeal.ReadP Cert.Spec Cert.RefPix

variable (X : Cert.Spec.SX.Idx → EReal) (T : Cert.Spec.ST.Idx → BitVec 32)

/-- The word of 0 a float sum starts from is 0. -/
theorem zero_word : Ideal.ofBits .f32 0x00000000#32 = 0 := Ideal.ofBits_zero_f32

/-- The boundary count is the region size minus the inner count. -/
theorem v36_eq : val_main_v36 (F := Ideal) T = subf (Sv T) (Icv T) := by
  funext j
  obtain ⟨c, rfl⟩ : ∃ c : Fin 4, j = ix1 c := ⟨j 0, eq_ix1 j⟩
  rw [val_main_v36_apply]
  unfold val_main_v35
  rw [reduceAddi_apply _ _ _ _ (val_main_c_5_apply _) c]
  simp only [val_main_v34_apply, v33_at]
  exact count_bnd T c

/-- The count of the pixels of a class is the region size. -/
theorem v41_eq : val_main_v41 (F := Ideal) T = Sv T := by
  funext j
  obtain ⟨c, rfl⟩ : ∃ c : Fin 4, j = ix1 c := ⟨j 0, eq_ix1 j⟩
  rw [val_main_v41_apply]
  unfold val_main_v40
  rw [reduceAddi_apply _ _ _ _ (val_main_c_7_apply _) c]
  simp only [val_main_v39_apply, v38_at]
  exact count_reg T c

/-- The sum of the squared one-hot is the region size. -/
theorem v58_eq : val_main_v58 (F := Ideal) T = Sv T := by
  funext j
  obtain ⟨c, rfl⟩ : ∃ c : Fin 4, j = ix1 c := ⟨j 0, eq_ix1 j⟩
  unfold val_main_v58
  rw [reduceAdd_apply _ _ _ (val_main_cst_15 (F := Ideal)) ((val_main_cst_15_apply _).trans zero_word) c]
  simp only [val_main_v57_apply, v17_at]
  exact ysum T c

/-- The intersection. -/
theorem v56_eq : val_main_v56 (F := Ideal) X T = Iv X T := by
  funext j
  obtain ⟨c, rfl⟩ : ∃ c : Fin 4, j = ix1 c := ⟨j 0, eq_ix1 j⟩
  unfold val_main_v56
  rw [reduceAdd_apply _ _ _ (val_main_cst_14 (F := Ideal)) ((val_main_cst_14_apply _).trans zero_word) c]
  simp only [val_main_v55_apply, v10_at, v17_at]
  rfl

/-- The squared score mass. -/
theorem v60_eq : val_main_v60 (F := Ideal) X = Zv X := by
  funext j
  obtain ⟨c, rfl⟩ : ∃ c : Fin 4, j = ix1 c := ⟨j 0, eq_ix1 j⟩
  unfold val_main_v60
  rw [reduceAdd_apply _ _ _ (val_main_cst_16 (F := Ideal)) ((val_main_cst_16_apply _).trans zero_word) c]
  simp only [val_main_v59_apply, v10_at]
  rfl

/-- The closing arithmetic is the specification's, operation by operation. -/
theorem tail_eq :
    val_main_v76 (F := Ideal) X T
      = tail (val_main_v36 (F := Ideal) T) (val_main_v41 (F := Ideal) T) (val_main_v58 (F := Ideal) T)
          (val_main_v56 (F := Ideal) X T) (val_main_v60 (F := Ideal) X) := by
  unfold val_main_v76 val_main_v75 val_main_v74 val_main_v73 val_main_v72 val_main_v71 val_main_v70 val_main_v69
    val_main_v68 val_main_v67 val_main_v66 val_main_v65 val_main_v64 val_main_v63 val_main_v62 val_main_v61
    val_main_v54 val_main_v53 val_main_v52 val_main_v51 val_main_v50 val_main_v49 val_main_v48 val_main_v47
    val_main_v46 val_main_v45 val_main_v44 val_main_v43 val_main_v42
  generalize val_main_v36 (F := Ideal) T = a
  generalize val_main_v41 (F := Ideal) T = s
  generalize val_main_v58 (F := Ideal) T = y
  generalize val_main_v56 (F := Ideal) X T = n
  generalize val_main_v60 (F := Ideal) X = z
  rfl

end Cert.RefValue

/-- THE REFERENCE'S RESULT is the specification's function of the two argument arrays. -/
theorem Cert.RefValue.ref_eq (X : (⟨Cert.ReferenceIdeal.S16x4x512x512, .f32⟩ : Idealize.ShloMosaic.BufTy).Contents (Idealize.ShloMosaic.Elt Idealize.ShloMosaic.Ideal))
    (T : (⟨Cert.ReferenceIdeal.S16x512x512, .i32⟩ : Idealize.ShloMosaic.BufTy).Contents (Idealize.ShloMosaic.Elt Idealize.ShloMosaic.Ideal)) :
    Cert.ReferenceIdeal.ReadP.val_main_v76 (F := Idealize.ShloMosaic.Ideal) X T = Cert.Spec.result X T := by
  rw [Cert.RefValue.tail_eq, Cert.RefValue.v36_eq, Cert.RefValue.v41_eq, Cert.RefValue.v58_eq, Cert.RefValue.v56_eq,
    Cert.RefValue.v60_eq]
  rfl

end
-- ==== Proof.KerCases.lean ====
/-
  What one call of the kernel body leaves behind, case by case.

  The body keeps four accumulators of shape [4, 1, 1], one entry per class: the region sizes, the inner counts, the
  intersections and the squared score masses. At a core's first image each is zeroed and then receives the image's
  term; at every later image it receives what it held plus the image's term; at a core's last image the four
  accumulators are, besides, laid side by side as the four columns of the core's [1, 4, 4] output block. Each image's
  term is a pure function of the image's logits block `x0` and labels block `x1`.
-/
import proofs.«103653_j11020886082202_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KVal

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a core's first image the accumulator of the region sizes is zeroed and then holds zero plus the image's term. -/
theorem sA0 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : cond0_0 i) (hc1 : ¬cond0_1 i)
    (x0 : Vec F S1x4x512x512 .f32) (x1 : Vec F S1x512x512 .i32) :
    sout0_A_0 c i a2 h2 a3 h3 a4 h4 a5 h5 a6 h6 a7 h7 a8 h8 hc0 hc1 x0 x1 = k0_pay16 (k0_pay13 x1) k0_pay7 := by
  unfold sout0_A_0
  rw [View.read_writes_eq_canon _ _ _ (scover0_A_0 c i a2 h2 a3 h3 a4 h4 a5 h5 a6 h6 a7 h7 a8 h8 hc0 hc1 x0 x1)]
  unfold kernelRun0_A
  dsimp only
  sl_unfold_words
  rw [View.canon_cons_unit_zero (S := S4x1x1) hz3, View.readCov_unit_zero (S := S4x1x1) _ hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a core's first image the accumulator of the inner counts is zeroed and then holds zero plus the image's term. -/
theorem sA1 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : cond0_0 i) (hc1 : ¬cond0_1 i)
    (x0 : Vec F S1x4x512x512 .f32) (x1 : Vec F S1x512x512 .i32) :
    sout0_A_1 c i a2 h2 a3 h3 a4 h4 a5 h5 a6 h6 a7 h7 a8 h8 hc0 hc1 x0 x1 = k0_pay17 (k0_pay13 x1) (k0_pay14 x1) k0_pay8 := by
  unfold sout0_A_1
  rw [View.read_writes_eq_canon _ _ _ (scover0_A_1 c i a2 h2 a3 h3 a4 h4 a5 h5 a6 h6 a7 h7 a8 h8 hc0 hc1 x0 x1)]
  unfold kernelRun0_A
  dsimp only
  sl_unfold_words
  rw [View.canon_cons_unit_zero (S := S4x1x1) hz3, View.readCov_unit_zero (S := S4x1x1) _ hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a core's first image the accumulator of the intersections is zeroed and then holds zero plus the image's term. -/
theorem sA2 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : cond0_0 i) (hc1 : ¬cond0_1 i)
    (x0 : Vec F S1x4x512x512 .f32) (x1 : Vec F S1x512x512 .i32) :
    sout0_A_2 c i a2 h2 a3 h3 a4 h4 a5 h5 a6 h6 a7 h7 a8 h8 hc0 hc1 x0 x1 = k0_pay1 (k0_pay18 (k0_pay11 x0) (k0_pay13 x1) k0_pay9) := by
  unfold sout0_A_2
  rw [View.read_writes_eq_canon _ _ _ (scover0_A_2 c i a2 h2 a3 h3 a4 h4 a5 h5 a6 h6 a7 h7 a8 h8 hc0 hc1 x0 x1)]
  unfold kernelRun0_A
  dsimp only
  sl_unfold_words
  rw [View.canon_cons_unit_zero (S := S4x1x1) hz3, View.readCov_unit_zero (S := S4x1x1) _ hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a core's first image the accumulator of the squared score masses is zeroed and then holds zero plus the image's term. -/
theorem sA3 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : cond0_0 i) (hc1 : ¬cond0_1 i)
    (x0 : Vec F S1x4x512x512 .f32) (x1 : Vec F S1x512x512 .i32) :
    sout0_A_3 c i a2 h2 a3 h3 a4 h4 a5 h5 a6 h6 a7 h7 a8 h8 hc0 hc1 x0 x1 = k0_pay2 (k0_pay15 (k0_pay11 x0)) k0_pay10 := by
  unfold sout0_A_3
  rw [View.read_writes_eq_canon _ _ _ (scover0_A_3 c i a2 h2 a3 h3 a4 h4 a5 h5 a6 h6 a7 h7 a8 h8 hc0 hc1 x0 x1)]
  unfold kernelRun0_A
  dsimp only
  sl_unfold_words
  rw [View.canon_cons_unit_zero (S := S4x1x1) hz3, View.readCov_unit_zero (S := S4x1x1) _ hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the region sizes holds what it held plus the image's term. -/
theorem sB0 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : ¬cond0_1 i)
    (x0 : Vec F S1x4x512x512 .f32) (x1 : Vec F S1x512x512 .i32) (xs0 xs1 xs2 xs3 : Vec F S4x1x1 .f32) :
    sout0_B_0 c i a2 h2 a3 h3 a4 h4 a5 h5 a6 h6 a7 h7 a8 h8 hc0 hc1 x0 x1 xs0 xs1 xs2 xs3 = k0_pay16 (k0_pay13 x1) xs0 := by
  unfold sout0_B_0
  rw [View.read_writes_eq_canon _ _ _ (scover0_B_0 c i a2 h2 a3 h3 a4 h4 a5 h5 a6 h6 a7 h7 a8 h8 hc0 hc1 x0 x1 xs0 xs1 xs2 xs3)]
  unfold kernelRun0_B
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the inner counts holds what it held plus the image's term. -/
theorem sB1 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : ¬cond0_1 i)
    (x0 : Vec F S1x4x512x512 .f32) (x1 : Vec F S1x512x512 .i32) (xs0 xs1 xs2 xs3 : Vec F S4x1x1 .f32) :
    sout0_B_1 c i a2 h2 a3 h3 a4 h4 a5 h5 a6 h6 a7 h7 a8 h8 hc0 hc1 x0 x1 xs0 xs1 xs2 xs3 = k0_pay17 (k0_pay13 x1) (k0_pay14 x1) xs1 := by
  unfold sout0_B_1
  rw [View.read_writes_eq_canon _ _ _ (scover0_B_1 c i a2 h2 a3 h3 a4 h4 a5 h5 a6 h6 a7 h7 a8 h8 hc0 hc1 x0 x1 xs0 xs1 xs2 xs3)]
  unfold kernelRun0_B
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the intersections holds what it held plus the image's term. -/
theorem sB2 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : ¬cond0_1 i)
    (x0 : Vec F S1x4x512x512 .f32) (x1 : Vec F S1x512x512 .i32) (xs0 xs1 xs2 xs3 : Vec F S4x1x1 .f32) :
    sout0_B_2 c i a2 h2 a3 h3 a4 h4 a5 h5 a6 h6 a7 h7 a8 h8 hc0 hc1 x0 x1 xs0 xs1 xs2 xs3 = k0_pay1 (k0_pay18 (k0_pay11 x0) (k0_pay13 x1) xs2) := by
  unfold sout0_B_2
  rw [View.read_writes_eq_canon _ _ _ (scover0_B_2 c i a2 h2 a3 h3 a4 h4 a5 h5 a6 h6 a7 h7 a8 h8 hc0 hc1 x0 x1 xs0 xs1 xs2 xs3)]
  unfold kernelRun0_B
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the squared score masses holds what it held plus the image's term. -/
theorem sB3 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : ¬cond0_1 i)
    (x0 : Vec F S1x4x512x512 .f32) (x1 : Vec F S1x512x512 .i32) (xs0 xs1 xs2 xs3 : Vec F S4x1x1 .f32) :
    sout0_B_3 c i a2 h2 a3 h3 a4 h4 a5 h5 a6 h6 a7 h7 a8 h8 hc0 hc1 x0 x1 xs0 xs1 xs2 xs3 = k0_pay2 (k0_pay15 (k0_pay11 x0)) xs3 := by
  unfold sout0_B_3
  rw [View.read_writes_eq_canon _ _ _ (scover0_B_3 c i a2 h2 a3 h3 a4 h4 a5 h5 a6 h6 a7 h7 a8 h8 hc0 hc1 x0 x1 xs0 xs1 xs2 xs3)]
  unfold kernelRun0_B
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the region sizes holds what it held plus the image's term (a core's last image). -/
theorem sC0 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : cond0_1 i)
    (x0 : Vec F S1x4x512x512 .f32) (x1 : Vec F S1x512x512 .i32) (xs0 xs1 xs2 xs3 : Vec F S4x1x1 .f32) :
    sout0_C_0 c i a2 h2 a3 h3 a4 h4 a5 h5 a6 h6 a7 h7 a8 h8 hc0 hc1 x0 x1 xs0 xs1 xs2 xs3 = k0_pay16 (k0_pay13 x1) xs0 := by
  unfold sout0_C_0
  rw [View.read_writes_eq_canon _ _ _ (scover0_C_0 c i a2 h2 a3 h3 a4 h4 a5 h5 a6 h6 a7 h7 a8 h8 hc0 hc1 x0 x1 xs0 xs1 xs2 xs3)]
  unfold kernelRun0_C
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the inner counts holds what it held plus the image's term (a core's last image). -/
theorem sC1 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : cond0_1 i)
    (x0 : Vec F S1x4x512x512 .f32) (x1 : Vec F S1x512x512 .i32) (xs0 xs1 xs2 xs3 : Vec F S4x1x1 .f32) :
    sout0_C_1 c i a2 h2 a3 h3 a4 h4 a5 h5 a6 h6 a7 h7 a8 h8 hc0 hc1 x0 x1 xs0 xs1 xs2 xs3 = k0_pay17 (k0_pay13 x1) (k0_pay14 x1) xs1 := by
  unfold sout0_C_1
  rw [View.read_writes_eq_canon _ _ _ (scover0_C_1 c i a2 h2 a3 h3 a4 h4 a5 h5 a6 h6 a7 h7 a8 h8 hc0 hc1 x0 x1 xs0 xs1 xs2 xs3)]
  unfold kernelRun0_C
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the intersections holds what it held plus the image's term (a core's last image). -/
theorem sC2 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : cond0_1 i)
    (x0 : Vec F S1x4x512x512 .f32) (x1 : Vec F S1x512x512 .i32) (xs0 xs1 xs2 xs3 : Vec F S4x1x1 .f32) :
    sout0_C_2 c i a2 h2 a3 h3 a4 h4 a5 h5 a6 h6 a7 h7 a8 h8 hc0 hc1 x0 x1 xs0 xs1 xs2 xs3 = k0_pay1 (k0_pay18 (k0_pay11 x0) (k0_pay13 x1) xs2) := by
  unfold sout0_C_2
  rw [View.read_writes_eq_canon _ _ _ (scover0_C_2 c i a2 h2 a3 h3 a4 h4 a5 h5 a6 h6 a7 h7 a8 h8 hc0 hc1 x0 x1 xs0 xs1 xs2 xs3)]
  unfold kernelRun0_C
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- At a later image the accumulator of the squared score masses holds what it held plus the image's term (a core's last image). -/
theorem sC3 (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : cond0_1 i)
    (x0 : Vec F S1x4x512x512 .f32) (x1 : Vec F S1x512x512 .i32) (xs0 xs1 xs2 xs3 : Vec F S4x1x1 .f32) :
    sout0_C_3 c i a2 h2 a3 h3 a4 h4 a5 h5 a6 h6 a7 h7 a8 h8 hc0 hc1 x0 x1 xs0 xs1 xs2 xs3 = k0_pay2 (k0_pay15 (k0_pay11 x0)) xs3 := by
  unfold sout0_C_3
  rw [View.read_writes_eq_canon _ _ _ (scover0_C_3 c i a2 h2 a3 h3 a4 h4 a5 h5 a6 h6 a7 h7 a8 h8 hc0 hc1 x0 x1 xs0 xs1 xs2 xs3)]
  unfold kernelRun0_C
  dsimp only
  sl_unfold_words
  rw [View.canon_unit_zero hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]

/-- The four accumulators as the four columns of the output block: the block's last stores, last first. -/
def outBlk (s0 s1 s2 s3 : Vec F S4x1x1 .f32) : Vec F S1x4x4 .f32 :=
  View.canon
    [⟨Rect.unit ![0, 0, 3] S1x4x1.size inb_S1x4x4_S1x4x1_0_0_3, k0_pay6 s3⟩,
     ⟨Rect.unit ![0, 0, 2] S1x4x1.size inb_S1x4x4_S1x4x1_0_0_2, k0_pay5 s2⟩,
     ⟨Rect.unit ![0, 0, 1] S1x4x1.size inb_S1x4x4_S1x4x1_0_0_1, k0_pay4 s1⟩,
     ⟨Rect.unit ![0, 0, 0] S1x4x1.size inb_S1x4x4_S1x4x1_0_0_0, k0_pay3 s0⟩]

/-- At a core's last image the output block holds the four UPDATED accumulators as its columns. -/
theorem oC (c : Dev nD) (i : grid0.Coords) (a2 : Memref sig .tc .vmem S1x4x512x512 .f32) (h2 : a2.IsWhole) (a3 : Memref sig .tc .vmem S1x512x512 .i32) (h3 : a3.IsWhole) (a4 : Memref sig .tc .vmem S1x4x4 .f32) (h4 : a4.IsWhole) (a5 : Memref sig .tc .vmem S4x1x1 .f32) (h5 : a5.IsWhole) (a6 : Memref sig .tc .vmem S4x1x1 .f32) (h6 : a6.IsWhole) (a7 : Memref sig .tc .vmem S4x1x1 .f32) (h7 : a7.IsWhole) (a8 : Memref sig .tc .vmem S4x1x1 .f32) (h8 : a8.IsWhole) (hc0 : ¬cond0_0 i) (hc1 : cond0_1 i)
    (x0 : Vec F S1x4x512x512 .f32) (x1 : Vec F S1x512x512 .i32) (xs0 xs1 xs2 xs3 : Vec F S4x1x1 .f32) :
    out0_C_2 c i a2 h2 a3 h3 a4 h4 a5 h5 a6 h6 a7 h7 a8 h8 hc0 hc1 x0 x1 xs0 xs1 xs2 xs3
      = outBlk (k0_pay16 (k0_pay13 x1) xs0) (k0_pay17 (k0_pay13 x1) (k0_pay14 x1) xs1) (k0_pay1 (k0_pay18 (k0_pay11 x0) (k0_pay13 x1) xs2)) (k0_pay2 (k0_pay15 (k0_pay11 x0)) xs3) := by
  unfold out0_C_2
  rw [View.read_writes_eq_canon _ _ _ (cover0_C_2 c i a2 h2 a3 h3 a4 h4 a5 h5 a6 h6 a7 h7 a8 h8 hc0 hc1 x0 x1 xs0 xs1 xs2 xs3)]
  unfold kernelRun0_C
  dsimp only
  sl_unfold_words
  rw [View.readCov_unit_zero (S := S4x1x1) a8.view hz3, View.readCov_unit_zero (S := S4x1x1) a7.view hz3,
    View.readCov_unit_zero (S := S4x1x1) a6.view hz3, View.readCov_unit_zero (S := S4x1x1) a5.view hz3]
  simp only [View.readAt_eq_ld, h2.read_unread, h3.read_unread, h5.read_unread, h6.read_unread, h7.read_unread, h8.read_unread, View.ld_unit_zero (S := S1x512x512) hz3, View.ld_unit_zero (S := S4x1x1) hz3, View.ld_unit_zero (S := S1x4x512x512) hz4]
  rfl

end Cert.KernelIdeal.KVal

end
-- ==== Proof.KerPix.lean ====
/-
  The kernel's per-image terms read at a class.

  One call of the body sees one image: its logits block `x0` [1, 4, 512, 512] and its labels block `x1` [1, 512, 512].
  From them it forms the softmax scores along the class axis, the one-hot of the labels, and the 0/1 map of the pixels
  whose four neighbours carry their own label (a neighbour outside the image read as -1), and sums four products over
  the image's rows and columns, lane axis first. Read at class `c`, each updated accumulator is what it held plus the
  image's double sum of the specification's pixel term.
-/
import proofs.«103653_j11020886082202_2_alg».proof.Proof.KerCases
import proofs.«103653_j11020886082202_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx

namespace Cert.KernelIdeal.KVal

open Cert.KernelIdeal Cert.KernelIdeal.Gen

/-! ### Layout and reduction reads at an index, over arbitrary vectors -/

section Aux

/-- The sum over columns, then (after a unit axis is appended) over rows, re-shaped to [4, 1, 1]: read at class
    `c` it is the double sum over the rows and columns of the class's plane. -/
theorem wsum (v : FVec Ideal S4x512x512 .f32) (h2 : S4x512x512.Reduces [2] S4x512)
    (hc1 : S4x512.ShapeCasts S4x512x1) (h1 : S4x512x1.Reduces [1] S4x1) (hc2 : S4x1.ShapeCasts S4x1x1) (c : Fin 4) :
    shapeCast S4x1x1 (multiReduction (F := Ideal) .add [1] S4x1
        (shapeCast S4x512x1 (multiReduction (F := Ideal) .add [2] S4x512 v 0x00000000#32 h2 (.inl rfl) rfl) hc1)
        0x00000000#32 h1 (.inl rfl) rfl) hc2 (ix3 c (0 : Fin 1) (0 : Fin 1))
      = ∑ i : Fin 512, ∑ j : Fin 512, v (ix3 c i j) := by
  refine (shapeCast_apply _ hc2 _ (ix2 c (0 : Fin 1)) (by
    rw [Shape.rowMajor_val_two, Shape.rowMajor_val_three]
    show c.val * 1 + 0 = (c.val * 1 + 0) * 1 + 0
    omega)).trans ?_
  refine (Ideal.multiReduction_add_single _ _ h1 _ _ (ix2 c (0 : Fin 1))).trans ?_
  refine Finset.sum_congr rfl fun i _ => ?_
  refine (shapeCast_apply _ hc1 _ (ix2 c i) (by
    rw [Shape.rowMajor_val_two, Shape.rowMajor_val_three]
    show c.val * 512 + i.val = (c.val * 512 + i.val) * 1 + 0
    omega)).trans ?_
  refine (Ideal.multiReduction_add_single v _ h2 _ _ (ix2 c i)).trans ?_
  refine Finset.sum_congr rfl fun j _ => ?_
  exact congrArg v (funext fun a => match a with
    | ⟨0, _⟩ => rfl
    | ⟨1, _⟩ => rfl
    | ⟨2, _⟩ => rfl)

/-- A [1, 512, 512] plane broadcast over the four classes reads the plane. -/
theorem bcast_apply {α : Type} (v : S1x512x512.Idx → α) (h : S1x512x512.Broadcasts S4x512x512) (c : Fin 4) (i j : Fin 512) :
    broadcastTo S4x512x512 v h (ix3 c i j) = v (ix3 (0 : Fin 1) i j) :=
  broadcastTo_apply v h _ _ (fun a => match a with
    | ⟨0, _⟩ => rfl
    | ⟨1, _⟩ => rfl
    | ⟨2, _⟩ => rfl)

/-- A [512, 512] plane given a leading unit axis and broadcast over the four classes reads the plane. -/
theorem plane_apply {α : Type} (v : S512x512.Idx → α) (hb : S512x512.ShapeCasts S1x512x512)
    (h : S1x512x512.Broadcasts S4x512x512) (c : Fin 4) (i j : Fin 512) :
    broadcastTo S4x512x512 (shapeCast S1x512x512 v hb) h (ix3 c i j) = v (ix2 i j) :=
  (bcast_apply _ h c i j).trans (shapeCast_ab_1ab_apply v hb 0 i j)

/-- A 0/1 bit widened to a word and read as a signed number is 1 or 0. -/
theorem sitofp_ofBool (b : Bool) :
    FloatOps.sitofp (F := Ideal) .f32 ((BitVec.ofBool b).setWidth 32) = if b then 1 else 0 := by
  cases b
  · have h : (((BitVec.ofBool false).setWidth 32 : BitVec 32)).toInt = 0 := by decide
    show (((((BitVec.ofBool false).setWidth 32 : BitVec 32)).toInt : ℝ) : EReal) = _
    rw [h]; simp
  · have h : (((BitVec.ofBool true).setWidth 32 : BitVec 32)).toInt = 1 := by decide
    show (((((BitVec.ofBool true).setWidth 32 : BitVec 32)).toInt : ℝ) : EReal) = _
    rw [h]; simp

/-- The words 1 and 0 read as signed numbers. -/
theorem sitofp_one : FloatOps.sitofp (F := Ideal) .f32 (1#32 : BitVec 32) = 1 := by
  have h : (1#32 : BitVec 32).toInt = 1 := by decide
  show ((((1#32 : BitVec 32)).toInt : ℝ) : EReal) = _
  rw [h]; simp
theorem sitofp_zero : FloatOps.sitofp (F := Ideal) .f32 (0#32 : BitVec 32) = 0 := by
  have h : (0#32 : BitVec 32).toInt = 0 := by decide
  show ((((0#32 : BitVec 32)).toInt : ℝ) : EReal) = _
  rw [h]; simp

/-- The labels shifted down by one row, the word of -1 entering at the first row: the label above each pixel. -/
theorem upPlane (L : IVec S512x512 32) (hs : S512x512.Slices ![0, 0] S511x512)
    (hcat : Shape.Concatenates [S1x512, S511x512] S512x512 0) (i j : Fin 512) :
    concatenate S512x512 0 [⟨S1x512, broadcast S1x512 4294967295#32⟩, ⟨S511x512, extractStridedSlice S511x512 ![0, 0] L hs⟩]
        hcat (ix2 i j)
      = if h : i.val = 0 then 4294967295#32 else L (ix2 ⟨i.val - 1, by omega⟩ j) := by
  by_cases h : i.val = 0
  · rw [dif_pos h]
    exact concatenate_pair_apply_left 0 _ _ hcat (ix2 i j) rfl (ix2 (0 : Fin 1) j) (fun b => match b with
      | ⟨0, _⟩ => by show 0 = i.val; omega
      | ⟨1, _⟩ => rfl)
  · rw [dif_neg h]
    have hi : i.val - 1 < 511 := by omega
    refine (concatenate_pair_apply_right 0 _ _ hcat (ix2 i j) rfl rfl (ix2 (⟨i.val - 1, hi⟩ : Fin 511) j)
      (fun b hb => match b, hb with
        | ⟨0, _⟩, hb => absurd rfl hb
        | ⟨1, _⟩, _ => rfl)
      (by show (i.val - 1) + 1 = i.val; omega)).trans ?_
    exact slice2_axis0_apply 0 L hs ⟨i.val - 1, hi⟩ j ⟨i.val - 1, by omega⟩ (by show i.val - 1 = 0 + (i.val - 1); omega)

/-- The labels shifted up by one row, the word of -1 entering at the last row: the label below each pixel. -/
theorem downPlane (L : IVec S512x512 32) (hs : S512x512.Slices ![1, 0] S511x512)
    (hcat : Shape.Concatenates [S511x512, S1x512] S512x512 0) (i j : Fin 512) :
    concatenate S512x512 0 [⟨S511x512, extractStridedSlice S511x512 ![1, 0] L hs⟩, ⟨S1x512, broadcast S1x512 4294967295#32⟩]
        hcat (ix2 i j)
      = if h : i.val = 511 then 4294967295#32 else L (ix2 ⟨i.val + 1, by omega⟩ j) := by
  by_cases h : i.val = 511
  · rw [dif_pos h]
    exact concatenate_pair_apply_right 0 _ _ hcat (ix2 i j) rfl rfl (ix2 (0 : Fin 1) j)
      (fun b hb => match b, hb with
        | ⟨0, _⟩, hb => absurd rfl hb
        | ⟨1, _⟩, _ => rfl)
      (by show 0 + 511 = i.val; omega)
  · rw [dif_neg h]
    have hi : i.val < 511 := by omega
    refine (concatenate_pair_apply_left 0 _ _ hcat (ix2 i j) rfl (ix2 (⟨i.val, hi⟩ : Fin 511) j) (fun b => match b with
      | ⟨0, _⟩ => rfl
      | ⟨1, _⟩ => rfl)).trans ?_
    exact slice2_axis0_apply 1 L hs ⟨i.val, hi⟩ j ⟨i.val + 1, by omega⟩ (by show i.val + 1 = 1 + i.val; omega)

/-- The labels shifted right by one column, the word of -1 entering at the first column: the label left of each pixel. -/
theorem leftPlane (L : IVec S512x512 32) (hs : S512x512.Slices ![0, 0] S512x511)
    (hcat : Shape.Concatenates [S512x1, S512x511] S512x512 1) (i j : Fin 512) :
    concatenate S512x512 1 [⟨S512x1, broadcast S512x1 4294967295#32⟩, ⟨S512x511, extractStridedSlice S512x511 ![0, 0] L hs⟩]
        hcat (ix2 i j)
      = if h : j.val = 0 then 4294967295#32 else L (ix2 i ⟨j.val - 1, by omega⟩) := by
  by_cases h : j.val = 0
  · rw [dif_pos h]
    exact concatenate_pair_apply_left 1 _ _ hcat (ix2 i j) rfl (ix2 i (0 : Fin 1)) (fun b => match b with
      | ⟨0, _⟩ => rfl
      | ⟨1, _⟩ => by show 0 = j.val; omega)
  · rw [dif_neg h]
    have hj : j.val - 1 < 511 := by omega
    refine (concatenate_pair_apply_right 1 _ _ hcat (ix2 i j) rfl rfl (ix2 i (⟨j.val - 1, hj⟩ : Fin 511))
      (fun b hb => match b, hb with
        | ⟨0, _⟩, _ => rfl
        | ⟨1, _⟩, hb => absurd rfl hb)
      (by show (j.val - 1) + 1 = j.val; omega)).trans ?_
    exact slice2_axis1_apply 0 L hs i ⟨j.val - 1, hj⟩ ⟨j.val - 1, by omega⟩ (by show j.val - 1 = 0 + (j.val - 1); omega)

/-- The labels shifted left by one column, the word of -1 entering at the last column: the label right of each pixel. -/
theorem rightPlane (L : IVec S512x512 32) (hs : S512x512.Slices ![0, 1] S512x511)
    (hcat : Shape.Concatenates [S512x511, S512x1] S512x512 1) (i j : Fin 512) :
    concatenate S512x512 1 [⟨S512x511, extractStridedSlice S512x511 ![0, 1] L hs⟩, ⟨S512x1, broadcast S512x1 4294967295#32⟩]
        hcat (ix2 i j)
      = if h : j.val = 511 then 4294967295#32 else L (ix2 i ⟨j.val + 1, by omega⟩) := by
  by_cases h : j.val = 511
  · rw [dif_pos h]
    exact concatenate_pair_apply_right 1 _ _ hcat (ix2 i j) rfl rfl (ix2 i (0 : Fin 1))
      (fun b hb => match b, hb with
        | ⟨0, _⟩, _ => rfl
        | ⟨1, _⟩, hb => absurd rfl hb)
      (by show 0 + 511 = j.val; omega)
  · rw [dif_neg h]
    have hj : j.val < 511 := by omega
    refine (concatenate_pair_apply_left 1 _ _ hcat (ix2 i j) rfl (ix2 i (⟨j.val, hj⟩ : Fin 511)) (fun b => match b with
      | ⟨0, _⟩ => rfl
      | ⟨1, _⟩ => rfl)).trans ?_
    exact slice2_axis1_apply 1 L hs i ⟨j.val, hj⟩ ⟨j.val + 1, by omega⟩ (by show j.val + 1 = 1 + j.val; omega)

/-- The conjunction of four word comparisons with a label, widened to a word, is 1 exactly when all four hold. -/
theorem inner_word (a b c d l : BitVec 32) :
    (IntOp.andi (IntOp.andi (IntOp.andi (IntOp.cmpi .eq a l) (IntOp.cmpi .eq b l)) (IntOp.cmpi .eq c l))
        (IntOp.cmpi .eq d l)).setWidth 32
      = if (a = l ∧ b = l ∧ c = l ∧ d = l) then 1#32 else 0#32 := by
  simp only [IntOp.cmpi, IntOp.andi, BitVec.ofBool_and_ofBool]
  have key : ∀ p : Bool, ((BitVec.ofBool p).setWidth 32 : BitVec 32) = if p = true then 1#32 else 0#32 := by decide
  rw [key]
  simp only [Bool.and_eq_true, beq_iff_eq, and_assoc]

/-- The class-axis maximum of a [4, 512, 512] block at a pixel: the fold of `max` over the four classes. -/
theorem max0 (v : FVec Ideal S4x512x512 .f32) (h : S4x512x512.Reduces [0] S512x512) (i j : Fin 512) :
    multiReduction (F := Ideal) .maximumf [0] S512x512 v 0xFF800000#32 h (.inl rfl) rfl (ix2 i j)
      = (Finset.univ : Finset (Fin 4)).fold max (Ideal.ofBits .f32 0xFF800000#32) (fun c => v (ix3 c i j)) := by
  refine (Ideal.multiReduction_maximumf_single v _ h _ _ (ix2 i j)).trans ?_
  have hf : (v ∘ h.lift (ix2 i j)) = fun c : Fin 4 => v (ix3 c i j) :=
    funext fun c => congrArg v (funext fun a => match a with
      | ⟨0, _⟩ => rfl
      | ⟨1, _⟩ => rfl
      | ⟨2, _⟩ => rfl)
  rw [hf]
  rfl

/-- The class-axis sum of a [4, 512, 512] block at a pixel. -/
theorem sum0 (v : FVec Ideal S4x512x512 .f32) (h : S4x512x512.Reduces [0] S512x512) (i j : Fin 512) :
    multiReduction (F := Ideal) .add [0] S512x512 v 0x00000000#32 h (.inl rfl) rfl (ix2 i j)
      = ∑ c : Fin 4, v (ix3 c i j) := by
  refine (Ideal.multiReduction_add_single v _ h _ _ (ix2 i j)).trans ?_
  exact Finset.sum_congr rfl fun c _ => congrArg v (funext fun a => match a with
    | ⟨0, _⟩ => rfl
    | ⟨1, _⟩ => rfl
    | ⟨2, _⟩ => rfl)

/-- The softmax along the class axis of a [4, 512, 512] block, read at a class and a pixel. -/
theorem softmax_apply (v : FVec Ideal S4x512x512 .f32) (hr : S4x512x512.Reduces [0] S512x512)
    (hb : S512x512.ShapeCasts S1x512x512) (hbc : S1x512x512.Broadcasts S4x512x512) (c : Fin 4) (i j : Fin 512) :
    divf
        (exp (subf v (broadcastTo S4x512x512 (shapeCast S1x512x512
          (multiReduction (F := Ideal) .maximumf [0] S512x512 v 0xFF800000#32 hr (.inl rfl) rfl) hb) hbc)))
        (broadcastTo S4x512x512 (shapeCast S1x512x512
          (multiReduction (F := Ideal) .add [0] S512x512
            (exp (subf v (broadcastTo S4x512x512 (shapeCast S1x512x512
              (multiReduction (F := Ideal) .maximumf [0] S512x512 v 0xFF800000#32 hr (.inl rfl) rfl) hb) hbc)))
            0x00000000#32 hr (.inl rfl) rfl) hb) hbc)
        (ix3 c i j)
      = Ideal.div
          (Ideal.exp (v (ix3 c i j)
            - (Finset.univ : Finset (Fin 4)).fold max (Ideal.ofBits .f32 0xFF800000#32) (fun c => v (ix3 c i j))))
          (∑ c' : Fin 4, Ideal.exp (v (ix3 c' i j)
            - (Finset.univ : Finset (Fin 4)).fold max (Ideal.ofBits .f32 0xFF800000#32) (fun c => v (ix3 c i j)))) := by
  have he : ∀ c' : Fin 4,
      exp (subf v (broadcastTo S4x512x512 (shapeCast S1x512x512
          (multiReduction (F := Ideal) .maximumf [0] S512x512 v 0xFF800000#32 hr (.inl rfl) rfl) hb) hbc)) (ix3 c' i j)
        = Ideal.exp (v (ix3 c' i j)
            - (Finset.univ : Finset (Fin 4)).fold max (Ideal.ofBits .f32 0xFF800000#32) (fun c => v (ix3 c i j))) := by
    intro c'
    show Ideal.exp (v (ix3 c' i j) - broadcastTo S4x512x512 _ hbc (ix3 c' i j)) = _
    rw [plane_apply, max0]
  show Ideal.div _ (broadcastTo S4x512x512 _ hbc (ix3 c i j)) = _
  rw [plane_apply, sum0]
  simp only [he]

end Aux

section Image

variable (X : Cert.Spec.SX.Idx → EReal) (T : Cert.Spec.ST.Idx → BitVec 32) (t : Fin 16)
  (x0 : Vec Ideal S1x4x512x512 .f32) (x1 : Vec Ideal S1x512x512 .i32)

/-- The accumulators start from zero. -/
theorem zero7_apply (c : Fin 4) : k0_pay7 (F := Ideal) (ix3 c (0 : Fin 1) (0 : Fin 1)) = 0 := by
  unfold k0_pay7
  refine (congrFun (shapeCast_self _ _) _).trans ?_
  exact Ideal.ofBits_zero_f32
theorem zero8_apply (c : Fin 4) : k0_pay8 (F := Ideal) (ix3 c (0 : Fin 1) (0 : Fin 1)) = 0 := by
  unfold k0_pay8
  refine (congrFun (shapeCast_self _ _) _).trans ?_
  exact Ideal.ofBits_zero_f32
theorem zero9_apply (c : Fin 4) : k0_pay9 (F := Ideal) (ix3 c (0 : Fin 1) (0 : Fin 1)) = 0 := by
  unfold k0_pay9
  refine (congrFun (shapeCast_self _ _) _).trans ?_
  exact Ideal.ofBits_zero_f32
theorem zero10_apply (c : Fin 4) : k0_pay10 (F := Ideal) (ix3 c (0 : Fin 1) (0 : Fin 1)) = 0 := by
  unfold k0_pay10
  refine (congrFun (shapeCast_self _ _) _).trans ?_
  exact Ideal.ofBits_zero_f32

/-- The labels block re-shaped to a plane reads the image's labels. -/
theorem lbl12 (hx1 : ∀ (i j : Fin 512), x1 (ix3 (0 : Fin 1) i j) = T (ix3 t i j)) (i j : Fin 512) :
    k0_pay12 (F := Ideal) x1 (ix2 i j) = T (ix3 t i j) := by
  unfold k0_pay12
  exact (shapeCast_1ab_ab_apply _ _ i j).trans (hx1 i j)

/-- The kernel's one-hot plane of a class is the specification's. -/
theorem oh13 (hx1 : ∀ (i j : Fin 512), x1 (ix3 (0 : Fin 1) i j) = T (ix3 t i j)) (c : Fin 4) (i j : Fin 512) :
    k0_pay13 (F := Ideal) x1 (ix3 c i j) = Cert.Spec.oh T t c i j := by
  unfold k0_pay13
  dsimp only
  show FloatOps.sitofp (F := Ideal) .f32
    ((BitVec.ofBool (iota .tc S4x512x512 32 [0] _ (ix3 c i j) == broadcastTo S4x512x512 _ _ (ix3 c i j))).setWidth 32) = _
  rw [iota_single_apply, plane_apply, lbl12 T t x1 hx1, sitofp_ofBool]
  unfold Cert.Spec.oh
  show (if (BitVec.ofNat 32 c.val == T (ix3 t i j)) = true then (1 : EReal) else 0) = _
  by_cases h : T (ix3 t i j) = BitVec.ofNat 32 c.val
  · rw [if_pos h, if_pos (by rw [h]; exact beq_self_eq_true _)]
  · rw [if_neg h, if_neg (by rw [beq_iff_eq]; exact fun e => h e.symm)]

/-- The region-size accumulator after image `t`. -/
theorem updS_apply (hx1 : ∀ (i j : Fin 512), x1 (ix3 (0 : Fin 1) i j) = T (ix3 t i j))
    (xs : Vec Ideal S4x1x1 .f32) (c : Fin 4) :
    k0_pay16 (F := Ideal) (k0_pay13 x1) xs (ix3 c (0 : Fin 1) (0 : Fin 1))
      = xs (ix3 c (0 : Fin 1) (0 : Fin 1)) + ∑ i : Fin 512, ∑ j : Fin 512, Cert.Spec.oh T t c i j := by
  unfold k0_pay16
  refine (congrFun (shapeCast_self _ _) _).trans ?_
  refine congrArg (xs (ix3 c (0 : Fin 1) (0 : Fin 1)) + ·) ?_
  refine (wsum _ _ _ _ _ c).trans ?_
  exact Finset.sum_congr rfl fun i _ => Finset.sum_congr rfl fun j _ => oh13 T t x1 hx1 c i j

/-- The kernel's inner map reads 1 at an inner pixel of the image, else 0. -/
theorem inner14 (hx1 : ∀ (i j : Fin 512), x1 (ix3 (0 : Fin 1) i j) = T (ix3 t i j)) (i j : Fin 512) :
    k0_pay14 (F := Ideal) x1 (ix2 i j) = if Cert.Spec.Inner T t i j then 1#32 else 0#32 := by
  unfold k0_pay14
  show (IntOp.andi (IntOp.andi (IntOp.andi
      (IntOp.cmpi .eq (concatenate S512x512 0 _ _ (ix2 i j)) (k0_pay12 (F := Ideal) x1 (ix2 i j)))
      (IntOp.cmpi .eq (concatenate S512x512 0 _ _ (ix2 i j)) (k0_pay12 (F := Ideal) x1 (ix2 i j))))
      (IntOp.cmpi .eq (concatenate S512x512 1 _ _ (ix2 i j)) (k0_pay12 (F := Ideal) x1 (ix2 i j))))
      (IntOp.cmpi .eq (concatenate S512x512 1 _ _ (ix2 i j)) (k0_pay12 (F := Ideal) x1 (ix2 i j)))).setWidth 32 = _
  rw [upPlane, downPlane, leftPlane, rightPlane, inner_word]
  simp only [lbl12 T t x1 hx1]
  rfl

/-- The inner-count accumulator after image `t`. -/
theorem updIc_apply (hx1 : ∀ (i j : Fin 512), x1 (ix3 (0 : Fin 1) i j) = T (ix3 t i j))
    (xs : Vec Ideal S4x1x1 .f32) (c : Fin 4) :
    k0_pay17 (F := Ideal) (k0_pay13 x1) (k0_pay14 x1) xs (ix3 c (0 : Fin 1) (0 : Fin 1))
      = xs (ix3 c (0 : Fin 1) (0 : Fin 1))
        + ∑ i : Fin 512, ∑ j : Fin 512, Cert.Spec.oh T t c i j * Cert.Spec.inr T t i j := by
  unfold k0_pay17
  refine (congrFun (shapeCast_self _ _) _).trans ?_
  refine congrArg (xs (ix3 c (0 : Fin 1) (0 : Fin 1)) + ·) ?_
  refine (wsum _ _ _ _ _ c).trans ?_
  refine Finset.sum_congr rfl fun i _ => Finset.sum_congr rfl fun j _ => ?_
  show k0_pay13 (F := Ideal) x1 (ix3 c i j) * broadcastTo S4x512x512 _ _ (ix3 c i j) = _
  rw [oh13 T t x1 hx1, plane_apply]
  show _ * FloatOps.sitofp (F := Ideal) .f32 (k0_pay14 (F := Ideal) x1 (ix2 i j)) = _
  rw [inner14 T t x1 hx1]
  unfold Cert.Spec.inr
  by_cases h : Cert.Spec.Inner T t i j
  · rw [if_pos h, if_pos h, sitofp_one]
  · rw [if_neg h, if_neg h, sitofp_zero]

/-- The kernel's softmax scores of the image's block are the specification's. -/
theorem pr11 (hx0 : ∀ (c : Fin 4) (i j : Fin 512), x0 (ix4 (0 : Fin 1) c i j) = X (ix4 t c i j))
    (c : Fin 4) (i j : Fin 512) :
    k0_pay11 (F := Ideal) x0 (ix3 c i j) = Cert.Spec.pr X t c i j := by
  have h4 : ∀ (hh : S1x4x512x512.ShapeCasts S4x512x512) (c' : Fin 4) (i' j' : Fin 512),
      shapeCast S4x512x512 x0 hh (ix3 c' i' j') = X (ix4 t c' i' j') :=
    fun hh c' i' j' => (shapeCast_1abc_abc_apply x0 hh c' i' j').trans (hx0 c' i' j')
  unfold k0_pay11
  refine (softmax_apply _ _ _ _ c i j).trans ?_
  unfold Cert.Spec.pr Cert.Spec.den Cert.Spec.ex Cert.Spec.mx
  simp only [h4]

/-- The intersection accumulator after image `t`. -/
theorem updI_apply (hx0 : ∀ (c : Fin 4) (i j : Fin 512), x0 (ix4 (0 : Fin 1) c i j) = X (ix4 t c i j))
    (hx1 : ∀ (i j : Fin 512), x1 (ix3 (0 : Fin 1) i j) = T (ix3 t i j))
    (xs : Vec Ideal S4x1x1 .f32) (c : Fin 4) :
    k0_pay1 (F := Ideal) (k0_pay18 (k0_pay11 x0) (k0_pay13 x1) xs) (ix3 c (0 : Fin 1) (0 : Fin 1))
      = xs (ix3 c (0 : Fin 1) (0 : Fin 1))
        + ∑ i : Fin 512, ∑ j : Fin 512, Cert.Spec.pr X t c i j * Cert.Spec.oh T t c i j := by
  unfold k0_pay1
  refine (congrFun (shapeCast_self _ _) _).trans ?_
  unfold k0_pay18
  refine congrArg (xs (ix3 c (0 : Fin 1) (0 : Fin 1)) + ·) ?_
  refine (wsum _ _ _ _ _ c).trans ?_
  refine Finset.sum_congr rfl fun i _ => Finset.sum_congr rfl fun j _ => ?_
  show k0_pay11 (F := Ideal) x0 (ix3 c i j) * k0_pay13 (F := Ideal) x1 (ix3 c i j) = _
  rw [pr11 X t x0 hx0, oh13 T t x1 hx1]

/-- The squared-score accumulator after image `t`. -/
theorem updZ_apply (hx0 : ∀ (c : Fin 4) (i j : Fin 512), x0 (ix4 (0 : Fin 1) c i j) = X (ix4 t c i j))
    (xs : Vec Ideal S4x1x1 .f32) (c : Fin 4) :
    k0_pay2 (F := Ideal) (k0_pay15 (k0_pay11 x0)) xs (ix3 c (0 : Fin 1) (0 : Fin 1))
      = xs (ix3 c (0 : Fin 1) (0 : Fin 1))
        + ∑ i : Fin 512, ∑ j : Fin 512, Cert.Spec.pr X t c i j * Cert.Spec.pr X t c i j := by
  unfold k0_pay2
  refine (congrFun (shapeCast_self _ _) _).trans ?_
  refine congrArg (xs (ix3 c (0 : Fin 1) (0 : Fin 1)) + ·) ?_
  unfold k0_pay15
  refine (wsum _ _ _ _ _ c).trans ?_
  refine Finset.sum_congr rfl fun i _ => Finset.sum_congr rfl fun j _ => ?_
  show k0_pay11 (F := Ideal) x0 (ix3 c i j) * k0_pay11 (F := Ideal) x0 (ix3 c i j) = _
  rw [pr11 X t x0 hx0]

end Image

/-! ### The output block's columns -/

section Columns

/-- Entry (0, c, k) of the block is entry (0, c, 0) of the column rectangle at lane `k`. -/
theorem col_emb (k : Nat) (inb : ∀ a, (![0, 0, k] : Fin 3 → Nat) a + S1x4x1.size a ≤ S1x4x4.size a)
    (c kk : Fin 4) (hk : kk.val = k) :
    ix3 (0 : Fin 1) c kk
      = (Rect.unit (s := S1x4x4) ![0, 0, k] S1x4x1.size inb).emb (ix3 (0 : Fin 1) c (0 : Fin 1)) := by
  funext a
  apply Fin.ext
  match a with
  | ⟨0, _⟩ => show 0 = 0 + 1 * 0; omega
  | ⟨1, _⟩ => show c.val = 0 + 1 * c.val; omega
  | ⟨2, _⟩ => show kk.val = k + 1 * 0; omega

/-- Entry (0, c, k) of the block is outside the column rectangle at another lane. -/
theorem col_not_mem (k m : Nat) (hkm : k ≠ m)
    (inb : ∀ a, (![0, 0, m] : Fin 3 → Nat) a + S1x4x1.size a ≤ S1x4x4.size a) (c kk : Fin 4) (hk : kk.val = k) :
    ix3 (0 : Fin 1) c kk ∉ (Rect.unit (s := S1x4x4) ![0, 0, m] S1x4x1.size inb).set := by
  rw [Rect.mem_set_unit]
  intro h
  have h2 : m ≤ kk.val ∧ kk.val < m + 1 := h 2
  omega

/-- A store through the column rectangle at lane `k`, last, leaves its payload's entry (0, c, 0) at (0, c, k). -/
theorem canon_col_hit (k : Nat) (inb : ∀ a, (![0, 0, k] : Fin 3 → Nat) a + S1x4x1.size a ≤ S1x4x4.size a)
    (w : S1x4x1.Idx → Elt Ideal .f32) (L : List (View.Piece (Elt Ideal) S1x4x4 .f32)) (c kk : Fin 4) (hk : kk.val = k) :
    View.canon ((⟨Rect.unit ![0, 0, k] S1x4x1.size inb, w⟩ : View.Piece (Elt Ideal) S1x4x4 .f32) :: L) (ix3 (0 : Fin 1) c kk)
      = w (ix3 (0 : Fin 1) c (0 : Fin 1)) := by
  rw [col_emb k inb c kk hk]
  exact View.canon_cons_emb (Rect.unit (s := S1x4x4) ![0, 0, k] S1x4x1.size inb) w L _

/-- A store through the column rectangle at another lane leaves entry (0, c, k) as it was. -/
theorem canon_col_miss (k m : Nat) (hkm : k ≠ m)
    (inb : ∀ a, (![0, 0, m] : Fin 3 → Nat) a + S1x4x1.size a ≤ S1x4x4.size a)
    (w : S1x4x1.Idx → Elt Ideal .f32) (L : List (View.Piece (Elt Ideal) S1x4x4 .f32)) (c kk : Fin 4) (hk : kk.val = k) :
    View.canon ((⟨Rect.unit ![0, 0, m] S1x4x1.size inb, w⟩ : View.Piece (Elt Ideal) S1x4x4 .f32) :: L) (ix3 (0 : Fin 1) c kk)
      = View.canon L (ix3 (0 : Fin 1) c kk) :=
  View.canon_cons_of_not_mem _ L (col_not_mem k m hkm inb c kk hk)

/-- A [4, 1, 1] accumulator re-shaped to [4, 1] and then to [1, 4, 1] reads, at (0, c, 0), its entry of class `c`. -/
theorem col_apply (s : Vec Ideal S4x1x1 .f32) (h1 : S4x1x1.ShapeCasts S4x1) (h2 : S4x1.ShapeCasts S1x4x1) (c : Fin 4) :
    shapeCast S1x4x1 (shapeCast S4x1 s h1) h2 (ix3 (0 : Fin 1) c (0 : Fin 1)) = s (ix3 c (0 : Fin 1) (0 : Fin 1)) := by
  refine (shapeCast_apply _ h2 _ (ix2 c (0 : Fin 1)) (by
    rw [Shape.rowMajor_val_two, Shape.rowMajor_val_three]
    show c.val * 1 + 0 = (0 * 4 + c.val) * 1 + 0
    omega)).trans ?_
  exact shapeCast_apply _ h1 _ (ix3 c (0 : Fin 1) (0 : Fin 1)) (by
    rw [Shape.rowMajor_val_two, Shape.rowMajor_val_three]
    show (c.val * 1 + 0) * 1 + 0 = c.val * 1 + 0
    omega)

end Columns

/-- The output block's entry (0, c, k) is accumulator `k`'s entry of class `c`. -/
theorem outBlk_apply (s0 s1 s2 s3 : Vec Ideal S4x1x1 .f32) (c : Fin 4) :
    outBlk (F := Ideal) s0 s1 s2 s3 (ix3 (0 : Fin 1) c (0 : Fin 4)) = s0 (ix3 c (0 : Fin 1) (0 : Fin 1))
    ∧ outBlk (F := Ideal) s0 s1 s2 s3 (ix3 (0 : Fin 1) c (1 : Fin 4)) = s1 (ix3 c (0 : Fin 1) (0 : Fin 1))
    ∧ outBlk (F := Ideal) s0 s1 s2 s3 (ix3 (0 : Fin 1) c (2 : Fin 4)) = s2 (ix3 c (0 : Fin 1) (0 : Fin 1))
    ∧ outBlk (F := Ideal) s0 s1 s2 s3 (ix3 (0 : Fin 1) c (3 : Fin 4)) = s3 (ix3 c (0 : Fin 1) (0 : Fin 1)) := by
  refine ⟨?_, ?_, ?_, ?_⟩
  · unfold outBlk
    refine (canon_col_miss 0 3 (by decide) _ _ _ c 0 rfl).trans ?_
    refine (canon_col_miss 0 2 (by decide) _ _ _ c 0 rfl).trans ?_
    refine (canon_col_miss 0 1 (by decide) _ _ _ c 0 rfl).trans ?_
    refine (canon_col_hit 0 _ _ _ c 0 rfl).trans ?_
    unfold k0_pay3
    exact col_apply s0 _ _ c
  · unfold outBlk
    refine (canon_col_miss 1 3 (by decide) _ _ _ c 1 rfl).trans ?_
    refine (canon_col_miss 1 2 (by decide) _ _ _ c 1 rfl).trans ?_
    refine (canon_col_hit 1 _ _ _ c 1 rfl).trans ?_
    unfold k0_pay4
    exact col_apply s1 _ _ c
  · unfold outBlk
    refine (canon_col_miss 2 3 (by decide) _ _ _ c 2 rfl).trans ?_
    refine (canon_col_hit 2 _ _ _ c 2 rfl).trans ?_
    unfold k0_pay5
    exact col_apply s2 _ _ c
  · unfold outBlk
    refine (canon_col_hit 3 _ _ _ c 3 rfl).trans ?_
    unfold k0_pay6
    exact col_apply s3 _ _ c

end Cert.KernelIdeal.KVal

end
-- ==== Proof.KerSum.lean ====
/-
  Sums over the sixteen images, grouped as the grid visits them.

  The grid runs over two cores and, on each, eight images in order: image `u` belongs to core `u / 8`. After the
  image at position `n` a core's accumulator holds the sum of its images up to `n`: the images `u` with
  `u / 8 = n / 8` and `u ≤ n` (`win n`). That set starts again at a core's first image, grows by one image at each
  later one, and at a core's last image is the core's whole group; the two groups together are all sixteen images.
-/
import Idealize.ShloMosaic.Lib.ValueIdx

noncomputable section

open scoped BigOperators

namespace Cert.KSum

/-- The images a core has summed once it has passed position `n`. -/
def win (n : ℕ) : Finset (Fin 16) := Finset.univ.filter (fun u => u.val / 8 = n / 8 ∧ u.val ≤ n)

theorem mem_win {n : ℕ} {v : Fin 16} : v ∈ win n ↔ v.val / 8 = n / 8 ∧ v.val ≤ n := by
  simp only [win, Finset.mem_filter, Finset.mem_univ, true_and]

/-- At a core's first image the set is that image alone. -/
theorem win_first (u : Fin 16) (h : u.val % 8 = 0) : win u.val = {u} := by
  ext v; rw [mem_win, Finset.mem_singleton, Fin.ext_iff]; have := v.isLt; have := u.isLt; omega

/-- At a later image the set is the previous one with that image added, -/
theorem win_step (u : Fin 16) (h : ¬u.val % 8 = 0) : win u.val = insert u (win (u.val - 1)) := by
  ext v; rw [Finset.mem_insert, mem_win, mem_win, Fin.ext_iff]; have := v.isLt; have := u.isLt; omega

/-- which was not in it. -/
theorem not_mem_prev (u : Fin 16) (h : ¬u.val % 8 = 0) : u ∉ win (u.val - 1) := by
  rw [mem_win]; omega

/-- At a core's last image the set is the core's whole group. -/
theorem win_last (u : Fin 16) (h : u.val % 8 = 7) :
    win u.val = Finset.univ.filter (fun v : Fin 16 => v.val / 8 = u.val / 8) := by
  ext v; rw [mem_win, Finset.mem_filter]; simp only [Finset.mem_univ, true_and]; have := v.isLt; have := u.isLt; omega

variable {M : Type*} [AddCommMonoid M]

theorem sum_win_first (g : Fin 16 → M) (u : Fin 16) (h : u.val % 8 = 0) : ∑ v ∈ win u.val, g v = g u := by
  rw [win_first u h, Finset.sum_singleton]

theorem sum_win_step (g : Fin 16 → M) (u : Fin 16) (h : ¬u.val % 8 = 0) :
    ∑ v ∈ win u.val, g v = (∑ v ∈ win (u.val - 1), g v) + g u := by
  rw [win_step u h, Finset.sum_insert (not_mem_prev u h), add_comm]

/-- The two cores' groups together are all sixteen images. -/
theorem sum_halves (g : Fin 16 → M) :
    (∑ v ∈ Finset.univ.filter (fun v : Fin 16 => v.val / 8 = 0), g v)
      + (∑ v ∈ Finset.univ.filter (fun v : Fin 16 => v.val / 8 = 1), g v) = ∑ v, g v := by
  have e : Finset.univ.filter (fun v : Fin 16 => v.val / 8 = 1) = Finset.univ.filter (fun v : Fin 16 => ¬v.val / 8 = 0) := by
    ext v; simp only [Finset.mem_filter, Finset.mem_univ, true_and]; have := v.isLt; omega
  rw [e, Finset.sum_filter_add_sum_filter_not]

end Cert.KSum

end
-- ==== Proof.KerAcc.lean ====
/-
  What the accumulators hold after each grid point, and what each core writes back.

  The grid point at position `n` handles image `n` (core `n / 8`, the core's image `n % 8`): the logits window's block
  there is image `n` of the logits, the labels window's block image `n` of the labels. By induction on the position,
  each accumulator read at class `c` holds the sum, over the images the core has handled so far, of that image's double
  sum of the specification's pixel term; at a core's last image the output block's entry (0, c, k) holds accumulator
  `k`'s value there, the sum over the core's eight images.
-/
import proofs.«103653_j11020886082202_2_alg».proof.Proof.KerCases
import proofs.«103653_j11020886082202_2_alg».proof.Proof.KerPix
import proofs.«103653_j11020886082202_2_alg».proof.Proof.KerSum
import proofs.«103653_j11020886082202_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KSum

variable (m : (ℓ : Loc nD τ sig) → Buf (Elt Ideal) ℓ)

/-- The two argument arrays on core `c`. -/
abbrev Xof (c : Dev nD) : Cert.Spec.SX.Idx → EReal := m ((c.tc : Thread nD τ).loc main_arg0)
abbrev Tof (c : Dev nD) : Cert.Spec.ST.Idx → BitVec 32 := m ((c.tc : Thread nD τ).loc main_arg1)

/-- Position `n` as an image number. -/
abbrev img (t : Fin cfg0.N) : Fin 16 := ⟨t.val, lt_of_lt_of_eq t.isLt N_0⟩

/-- The windows' index maps over the grid: the logits and labels windows sit on image `n`, at the origin of the other axes. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The logits block at position `n` is image `n` of the logits. -/
theorem iblk0_apply (c : Dev nD) (t : Fin cfg0.N) (cc : Fin 4) (i j : Fin 512) :
    (iblk m c 0 t : Vec Ideal S1x4x512x512 .f32) (ix4 (0 : Fin 1) cc i j) = Xof m c (ix4 (img t) cc i j) := by
  unfold iblk
  rw [View.read_apply]
  show V m c main_arg0 _ = m (c.tc.loc main_arg0) _
  unfold V
  congr 1
  funext a
  apply Fin.ext
  have h := idx0 t
  match a with
  | ⟨0, _⟩ => show win0_0.index t 0 * 1 + 1 * 0 = t.val; rw [h.1]; omega
  | ⟨1, _⟩ => show win0_0.index t 1 * 4 + 1 * cc.val = cc.val; rw [h.2.1]; omega
  | ⟨2, _⟩ => show win0_0.index t 2 * 512 + 1 * i.val = i.val; rw [h.2.2.1]; omega
  | ⟨3, _⟩ => show win0_0.index t 3 * 512 + 1 * j.val = j.val; rw [h.2.2.2]; omega

/-- The labels block at position `n` is image `n` of the labels. -/
theorem iblk1_apply (c : Dev nD) (t : Fin cfg0.N) (i j : Fin 512) :
    (iblk m c 1 t : Vec Ideal S1x512x512 .i32) (ix3 (0 : Fin 1) i j) = Tof m c (ix3 (img t) i j) := by
  unfold iblk
  rw [View.read_apply]
  show V m c main_arg1 _ = m (c.tc.loc main_arg1) _
  unfold V
  congr 1
  funext a
  apply Fin.ext
  have h := idx1 t
  match a with
  | ⟨0, _⟩ => show win0_1.index t 0 * 1 + 1 * 0 = t.val; rw [h.1]; omega
  | ⟨1, _⟩ => show win0_1.index t 1 * 512 + 1 * i.val = i.val; rw [h.2.1]; omega
  | ⟨2, _⟩ => show win0_1.index t 2 * 512 + 1 * j.val = j.val; rw [h.2.2]; omega

section Acc

variable (cc : Dev nD)

/-- Image `u`'s four terms at class `c`: its double sums of the specification's pixel terms. -/
def L0 (u : Fin 16) (c : Fin 4) : EReal := ∑ i : Fin 512, ∑ j : Fin 512, Cert.Spec.oh (Tof m cc) u c i j
def L1 (u : Fin 16) (c : Fin 4) : EReal :=
  ∑ i : Fin 512, ∑ j : Fin 512, Cert.Spec.oh (Tof m cc) u c i j * Cert.Spec.inr (Tof m cc) u i j
def L2 (u : Fin 16) (c : Fin 4) : EReal :=
  ∑ i : Fin 512, ∑ j : Fin 512, Cert.Spec.pr (Xof m cc) u c i j * Cert.Spec.oh (Tof m cc) u c i j
def L3 (u : Fin 16) (c : Fin 4) : EReal :=
  ∑ i : Fin 512, ∑ j : Fin 512, Cert.Spec.pr (Xof m cc) u c i j * Cert.Spec.pr (Xof m cc) u c i j

/-- At a core's first image every accumulator holds that image's term. -/
theorem stepA (t : Fin cfg0.N) (h0 : t.val % 8 = 0) (c : Fin 4) :
    (outsAt0 m cc t.val t.isLt).2.1 (ix3 c (0 : Fin 1) (0 : Fin 1)) = L0 m cc (img t) c
    ∧ (outsAt0 m cc t.val t.isLt).2.2.1 (ix3 c (0 : Fin 1) (0 : Fin 1)) = L1 m cc (img t) c
    ∧ (outsAt0 m cc t.val t.isLt).2.2.2.1 (ix3 c (0 : Fin 1) (0 : Fin 1)) = L2 m cc (img t) c
    ∧ (outsAt0 m cc t.val t.isLt).2.2.2.2 (ix3 c (0 : Fin 1) (0 : Fin 1)) = L3 m cc (img t) c := by
  have h1 : ¬t.val % 8 = 7 := by omega
  rw [outsAt0_A m cc t h0 h1]
  dsimp only
  refine ⟨?_, ?_, ?_, ?_⟩
  · rw [sA0 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m cc 0 t) (iblk m cc 1 t)]
    exact (updS_apply (Tof m cc) (img t) (iblk m cc 1 t) (fun i j => iblk1_apply m cc t i j) (k0_pay7 (F := Ideal)) c).trans (by rw [zero7_apply, zero_add]; rfl)
  · rw [sA1 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m cc 0 t) (iblk m cc 1 t)]
    exact (updIc_apply (Tof m cc) (img t) (iblk m cc 1 t) (fun i j => iblk1_apply m cc t i j) (k0_pay8 (F := Ideal)) c).trans (by rw [zero8_apply, zero_add]; rfl)
  · rw [sA2 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m cc 0 t) (iblk m cc 1 t)]
    exact (updI_apply (Xof m cc) (Tof m cc) (img t) (iblk m cc 0 t) (iblk m cc 1 t) (fun c' i j => iblk0_apply m cc t c' i j) (fun i j => iblk1_apply m cc t i j) (k0_pay9 (F := Ideal)) c).trans (by rw [zero9_apply, zero_add]; rfl)
  · rw [sA3 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m cc 0 t) (iblk m cc 1 t)]
    exact (updZ_apply (Xof m cc) (img t) (iblk m cc 0 t) (fun c' i j => iblk0_apply m cc t c' i j) (k0_pay10 (F := Ideal)) c).trans (by rw [zero10_apply, zero_add]; rfl)

/-- At a later image every accumulator holds what it held plus that image's term. -/
theorem stepBC (t : Fin cfg0.N) (h0 : ¬t.val % 8 = 0) (c : Fin 4) :
    (outsAt0 m cc t.val t.isLt).2.1 (ix3 c (0 : Fin 1) (0 : Fin 1))
      = (outsAt0 m cc (t.val - 1) (Nat.lt_of_le_of_lt (Nat.sub_le _ _) t.isLt)).2.1 (ix3 c (0 : Fin 1) (0 : Fin 1)) + L0 m cc (img t) c
    ∧ (outsAt0 m cc t.val t.isLt).2.2.1 (ix3 c (0 : Fin 1) (0 : Fin 1))
      = (outsAt0 m cc (t.val - 1) (Nat.lt_of_le_of_lt (Nat.sub_le _ _) t.isLt)).2.2.1 (ix3 c (0 : Fin 1) (0 : Fin 1)) + L1 m cc (img t) c
    ∧ (outsAt0 m cc t.val t.isLt).2.2.2.1 (ix3 c (0 : Fin 1) (0 : Fin 1))
      = (outsAt0 m cc (t.val - 1) (Nat.lt_of_le_of_lt (Nat.sub_le _ _) t.isLt)).2.2.2.1 (ix3 c (0 : Fin 1) (0 : Fin 1)) + L2 m cc (img t) c
    ∧ (outsAt0 m cc t.val t.isLt).2.2.2.2 (ix3 c (0 : Fin 1) (0 : Fin 1))
      = (outsAt0 m cc (t.val - 1) (Nat.lt_of_le_of_lt (Nat.sub_le _ _) t.isLt)).2.2.2.2 (ix3 c (0 : Fin 1) (0 : Fin 1)) + L3 m cc (img t) c := by
  by_cases h1 : t.val % 8 = 7
  · rw [outsAt0_C m cc t h0 h1]
    dsimp only
    refine ⟨?_, ?_, ?_, ?_⟩
    · rw [sC0 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updS_apply (Tof m cc) (img t) (iblk m cc 1 t) (fun i j => iblk1_apply m cc t i j) (outsAt0 m cc (t.val - 1) (Nat.lt_of_le_of_lt (Nat.sub_le _ _) t.isLt)).2.1 c
    · rw [sC1 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updIc_apply (Tof m cc) (img t) (iblk m cc 1 t) (fun i j => iblk1_apply m cc t i j) (outsAt0 m cc (t.val - 1) (Nat.lt_of_le_of_lt (Nat.sub_le _ _) t.isLt)).2.2.1 c
    · rw [sC2 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updI_apply (Xof m cc) (Tof m cc) (img t) (iblk m cc 0 t) (iblk m cc 1 t) (fun c' i j => iblk0_apply m cc t c' i j) (fun i j => iblk1_apply m cc t i j) (outsAt0 m cc (t.val - 1) (Nat.lt_of_le_of_lt (Nat.sub_le _ _) t.isLt)).2.2.2.1 c
    · rw [sC3 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updZ_apply (Xof m cc) (img t) (iblk m cc 0 t) (fun c' i j => iblk0_apply m cc t c' i j) (outsAt0 m cc (t.val - 1) (Nat.lt_of_le_of_lt (Nat.sub_le _ _) t.isLt)).2.2.2.2 c
  · rw [outsAt0_B m cc t h0 h1]
    dsimp only
    refine ⟨?_, ?_, ?_, ?_⟩
    · rw [sB0 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updS_apply (Tof m cc) (img t) (iblk m cc 1 t) (fun i j => iblk1_apply m cc t i j) (outsAt0 m cc (t.val - 1) (Nat.lt_of_le_of_lt (Nat.sub_le _ _) t.isLt)).2.1 c
    · rw [sB1 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updIc_apply (Tof m cc) (img t) (iblk m cc 1 t) (fun i j => iblk1_apply m cc t i j) (outsAt0 m cc (t.val - 1) (Nat.lt_of_le_of_lt (Nat.sub_le _ _) t.isLt)).2.2.1 c
    · rw [sB2 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updI_apply (Xof m cc) (Tof m cc) (img t) (iblk m cc 0 t) (iblk m cc 1 t) (fun c' i j => iblk0_apply m cc t c' i j) (fun i j => iblk1_apply m cc t i j) (outsAt0 m cc (t.val - 1) (Nat.lt_of_le_of_lt (Nat.sub_le _ _) t.isLt)).2.2.2.1 c
    · rw [sB3 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
      exact updZ_apply (Xof m cc) (img t) (iblk m cc 0 t) (fun c' i j => iblk0_apply m cc t c' i j) (outsAt0 m cc (t.val - 1) (Nat.lt_of_le_of_lt (Nat.sub_le _ _) t.isLt)).2.2.2.2 c

/-- THE ACCUMULATION: after position `n` each accumulator, read at class `c`, is the sum of the terms of the images its core
    has handled so far. -/
theorem acc_eq : ∀ (n : ℕ) (h : n < cfg0.N) (c : Fin 4),
    (outsAt0 m cc n h).2.1 (ix3 c (0 : Fin 1) (0 : Fin 1)) = ∑ u ∈ win n, L0 m cc u c
    ∧ (outsAt0 m cc n h).2.2.1 (ix3 c (0 : Fin 1) (0 : Fin 1)) = ∑ u ∈ win n, L1 m cc u c
    ∧ (outsAt0 m cc n h).2.2.2.1 (ix3 c (0 : Fin 1) (0 : Fin 1)) = ∑ u ∈ win n, L2 m cc u c
    ∧ (outsAt0 m cc n h).2.2.2.2 (ix3 c (0 : Fin 1) (0 : Fin 1)) = ∑ u ∈ win n, L3 m cc u c
  | n, h, c => by
    by_cases h0 : n % 8 = 0
    · have s := stepA m cc ⟨n, h⟩ h0 c
      have e : ∀ g : Fin 16 → EReal, ∑ u ∈ win n, g u = g (img ⟨n, h⟩) := fun g => sum_win_first g (img ⟨n, h⟩) h0
      rw [e, e, e, e]
      exact s
    · have s := stepBC m cc ⟨n, h⟩ h0 c
      have hn : n - 1 < n := by omega
      have ih := acc_eq (n - 1) (Nat.lt_of_le_of_lt (Nat.sub_le _ _) h) c
      have e : ∀ g : Fin 16 → EReal, ∑ u ∈ win n, g u = (∑ u ∈ win (n - 1), g u) + g (img ⟨n, h⟩) :=
        fun g => sum_win_step g (img ⟨n, h⟩) h0
      rw [e, e, e, e, ← ih.1, ← ih.2.1, ← ih.2.2.1, ← ih.2.2.2]
      exact s
  termination_by n => n

/-- At a core's last image the output block's entry (0, c, k) is accumulator `k`'s entry of class `c`. -/
theorem out_last (t : Fin cfg0.N) (h1 : t.val % 8 = 7) (c : Fin 4) :
    (outsAt0 m cc t.val t.isLt).1 (ix3 (0 : Fin 1) c (0 : Fin 4)) = (outsAt0 m cc t.val t.isLt).2.1 (ix3 c (0 : Fin 1) (0 : Fin 1))
    ∧ (outsAt0 m cc t.val t.isLt).1 (ix3 (0 : Fin 1) c (1 : Fin 4)) = (outsAt0 m cc t.val t.isLt).2.2.1 (ix3 c (0 : Fin 1) (0 : Fin 1))
    ∧ (outsAt0 m cc t.val t.isLt).1 (ix3 (0 : Fin 1) c (2 : Fin 4)) = (outsAt0 m cc t.val t.isLt).2.2.2.1 (ix3 c (0 : Fin 1) (0 : Fin 1))
    ∧ (outsAt0 m cc t.val t.isLt).1 (ix3 (0 : Fin 1) c (3 : Fin 4)) = (outsAt0 m cc t.val t.isLt).2.2.2.2 (ix3 c (0 : Fin 1) (0 : Fin 1)) := by
  have h0 : ¬t.val % 8 = 0 := by omega
  rw [outsAt0_C m cc t h0 h1]
  dsimp only
  rw [oC cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2,
    sC0 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2,
    sC1 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2,
    sC2 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2,
    sC3 cc (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m cc 0 t) (iblk m cc 1 t) (outsAt0 m cc (t.val - 1) (Nat.lt_of_le_of_lt (Nat.sub_le _ _) t.isLt)).2.1 (outsAt0 m cc (t.val - 1) (Nat.lt_of_le_of_lt (Nat.sub_le _ _) t.isLt)).2.2.1 (outsAt0 m cc (t.val - 1) (Nat.lt_of_le_of_lt (Nat.sub_le _ _) t.isLt)).2.2.2.1 (outsAt0 m cc (t.val - 1) (Nat.lt_of_le_of_lt (Nat.sub_le _ _) t.isLt)).2.2.2.2]
  exact outBlk_apply _ _ _ _ c

end Acc

end Cert.KernelIdeal.KVal

end
-- ==== Proof.KerFinal.lean ====
/-
  The [2, 4, 4] array the region leaves.

  Output block `p` is written back once, after core `p`'s last image, and the two blocks tile the array. So the array's
  entry (p, c, k) is accumulator `k`'s value at class `c` after core `p`'s eight images: the sum over the core's
  images of term `k`.
-/
import proofs.«103653_j11020886082202_2_alg».proof.Proof.KerAcc

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KSum

variable (m : (ℓ : Loc nD τ sig) → Buf (Elt Ideal) ℓ) (cc : Dev nD)

/-- Term `k` of an image: region size, inner count, intersection, squared score mass. -/
def Lk (k : Fin 4) : Fin 16 → Fin 4 → EReal :=
  match k with
  | ⟨0, _⟩ => L0 m cc
  | ⟨1, _⟩ => L1 m cc
  | ⟨2, _⟩ => L2 m cc
  | ⟨3, _⟩ => L3 m cc

/-- Core `p`'s sum of term `k` at class `c`. -/
def coreSum (p : Fin 2) (c k : Fin 4) : EReal :=
  ∑ u ∈ Finset.univ.filter (fun u : Fin 16 => u.val / 8 = p.val), Lk m cc k u c

/-- The array the region leaves. -/
def G : S2x4x4.Idx → EReal := fun y => coreSum m cc (y 0) (y 1) (y 2)

/-- The output window sits on block `n / 8`. -/
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- After a core's last image the output block's entry (0, c, k) is the core's sum of term `k` at class `c`. -/
theorem out_eq (t : Fin cfg0.N) (h7 : t.val % 8 = 7) (c k : Fin 4) :
    (outsAt0 m cc t.val t.isLt).1 (ix3 (0 : Fin 1) c k)
      = ∑ u ∈ Finset.univ.filter (fun u : Fin 16 => u.val / 8 = t.val / 8), Lk m cc k u c := by
  have ho := out_last m cc t h7 c
  have ha := acc_eq m cc t.val t.isLt c
  have hw : win t.val = Finset.univ.filter (fun u : Fin 16 => u.val / 8 = t.val / 8) := win_last (img t) h7
  rw [← hw]
  match k with
  | ⟨0, _⟩ => exact ho.1.trans ha.1
  | ⟨1, _⟩ => exact ho.2.1.trans ha.2.1
  | ⟨2, _⟩ => exact ho.2.2.1.trans ha.2.2.1
  | ⟨3, _⟩ => exact ho.2.2.2.trans ha.2.2.2

/-- WHAT A CORE'S LAST POINT WRITES BACK is its block of `G`. -/
theorem flushed_eq (t : Fin cfg0.N) (hf : (cfg0.win 2).flush t = true) :
    (dats m 0 cc).flushed 2 t = ((cfg0.win 2).blk t).view.read (Elt Ideal) (G m cc) := by
  have h7 : t.val % 8 = 7 := (flush0_2 t).mp hf
  have hN : t.val < 16 := lt_of_lt_of_eq t.isLt N_0
  show (cfg0.win 2).cut (grid0.coords t) ((dats m 0 cc).after 2 t) = _
  rw [after0_2]
  funext y
  have hy : y = ix3 (0 : Fin 1) (y 1) (y 2) := by
    funext a
    match a with
    | ⟨0, _⟩ => exact Fin.ext (by show (y 0).val = 0; have h : (y 0).val < 1 := (y 0).isLt; omega)
    | ⟨1, _⟩ => rfl
    | ⟨2, _⟩ => rfl
  obtain ⟨c, k, rfl⟩ : ∃ (c : Fin 4) (k : Fin 4), y = ix3 (0 : Fin 1) c k := ⟨y 1, y 2, hy⟩
  have hemb : ((cfg0.win 2).blk t).view.emb (ix3 (0 : Fin 1) c k) = (ix3 (⟨t.val / 8, by omega⟩ : Fin 2) c k : S2x4x4.Idx) := by
    funext a
    apply Fin.ext
    have h := idx2 t
    match a with
    | ⟨0, _⟩ => show win0_2.index t 0 * 1 + 1 * 0 = t.val / 8; rw [h.1]; omega
    | ⟨1, _⟩ => show win0_2.index t 1 * 4 + 1 * c.val = c.val; rw [h.2.1]; omega
    | ⟨2, _⟩ => show win0_2.index t 2 * 4 + 1 * k.val = k.val; rw [h.2.2]; omega
  show (outsAt0 m cc t.val t.isLt).1 (ix3 (0 : Fin 1) c k) = G m cc (((cfg0.win 2).blk t).view.emb (ix3 (0 : Fin 1) c k))
  rw [hemb]
  exact out_eq m cc t h7 c k

/-- The two blocks tile the array: entry (p, ·, ·) lies in the block core `p`'s last point writes back. -/
theorem cover (i : S2x4x4.Idx) : ∃ t : Fin cfg0.N, (cfg0.win 2).flush t = true ∧ i ∈ ((cfg0.win 2).blk t).view.set := by
  have h0 : (i 0).val < 2 := (i 0).isLt
  have h1 : (i 1).val < 4 := (i 1).isLt
  have h2 : (i 2).val < 4 := (i 2).isLt
  have hN : cfg0.N = 16 := N_0
  obtain ⟨t, ht⟩ : ∃ t : Fin cfg0.N, t.val = 8 * (i 0).val + 7 := ⟨⟨8 * (i 0).val + 7, by omega⟩, rfl⟩
  refine ⟨t, (flush0_2 t).mpr (by omega), ?_⟩
  show i ∈ ((View.whole main_v0).slice (win0_2.rect t)).set
  rw [View.set_slice_whole, Rect.mem_set_unit]
  have h := idx2 t
  intro a
  match a with
  | ⟨0, _⟩ =>
    show win0_2.index t 0 * 1 ≤ (i 0).val ∧ (i 0).val < win0_2.index t 0 * 1 + 1
    rw [h.1]; omega
  | ⟨1, _⟩ =>
    show win0_2.index t 1 * 4 ≤ (i 1).val ∧ (i 1).val < win0_2.index t 1 * 4 + 4
    rw [h.2.1]; omega
  | ⟨2, _⟩ =>
    show win0_2.index t 2 * 4 ≤ (i 2).val ∧ (i 2).val < win0_2.index t 2 * 4 + 4
    rw [h.2.2]; omega

/-- THE ARRAY after the region. -/
theorem final (c : Dev nD) : (dats m 0 c).arrAt 2 cfg0.N = G m c :=
  (dats m 0 c).arrAt_eq_of_cover 2 (G m c) (flushed_eq m c) (cover)

end Cert.KernelIdeal.KVal

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.KerHost.lean ====
/-
  The host lines after the region, read at a class.

  The two cores' [4, 4] blocks are added (a sum over the leading axis of the [2, 4, 4] array, from zero), and column
  `k` of the sum is cut out and laid as a vector of four: its entry at class `c` is the array's entry (0, c, k) plus its
  entry (1, c, k).
-/
import proofs.«103653_j11020886082202_2_alg».proof.Proof.Gen.KernelIdeal.Frame
import proofs.«103653_j11020886082202_2_alg».proof.Proof.LibColumnBack
import Idealize.ShloMosaic.Lib.ValueIdx
import Idealize.ShloMosaic.Lib.Pipeline.Value
import Idealize.ShloMosaic.PureOps.Ideal
import Idealize.ShloMosaic.PureOps.Ideal.Laws

noncomputable section

open scoped BigOperators
open Idealize.ShloMosaic Idealize.ShloMosaic.TcCoe Idealize.ShloMosaic.ValueIdx

namespace Cert.KernelIdeal.KVal

open Cert.KernelIdeal Cert.KernelIdeal.Gen

/-- The cores' blocks added, read at (c, k). -/
theorem coresAdded_apply (A' : S2x4x4.Idx → EReal) (cl k : Fin 4) :
    Host.reduceAdd (F := Ideal) (φ := .f32) A' (constant (F := Ideal) S_ .f32 0x00000000#32) reducesTo_S2x4x4_S4x4_d0 h_S_ (ix2 cl k)
      = A' (ix3 (0 : Fin 2) cl k) + A' (ix3 (1 : Fin 2) cl k) := by
  have hR : S2x4x4.Reduces [0] S4x4 := by decide
  show Ideal.hostReduceAdd reducesTo_S2x4x4_S4x4_d0 A' (Ideal.ofBits .f32 0x00000000#32) (ix2 cl k) = _
  rw [Ideal.hostReduceAdd_single reducesTo_S2x4x4_S4x4_d0 hR, Ideal.ofBits_zero_f32, zero_add]
  show ∑ p : Fin 2, A' (hR.lift (ix2 cl k) p) = _
  rw [Fin.sum_univ_two]
  congr 1 <;> exact congrArg A' (funext fun a => Fin.ext (by match a with | ⟨0, _⟩ => rfl | ⟨1, _⟩ => rfl | ⟨2, _⟩ => rfl))

/-- Column `o` of the added blocks, as a vector of four. -/
def hostCol (A' : S2x4x4.Idx → EReal) (o : ℕ) (hs : S4x4.Slices ![0, o] S4x1) : FVec Ideal S4 .f32 :=
  fun i => shapeCast S4
    (extractStridedSlice S4x1 ![0, o]
      (Host.reduceAdd (F := Ideal) (φ := .f32) A' (constant (F := Ideal) S_ .f32 0x00000000#32) reducesTo_S2x4x4_S4x4_d0 h_S_) hs)
    shapeCasts_S4x1_S4 i

/-- Its entry at class `c`: the two cores' entries (·, c, o) added. -/
theorem hostCol_apply (A' : S2x4x4.Idx → EReal) (o : ℕ) (ho : o < 4) (hs : S4x4.Slices ![0, o] S4x1) (cl : Fin 4) :
    hostCol A' o hs (ix1 cl) = A' (ix3 (0 : Fin 2) cl ⟨o, ho⟩) + A' (ix3 (1 : Fin 2) cl ⟨o, ho⟩) := by
  unfold hostCol
  rw [Cert.Lib.shapeCast_a1_a_apply]
  rw [extractStridedSlice_apply _ _ hs (ix2 cl (0 : Fin 1)) (ix2 cl (⟨o, ho⟩ : Fin 4)) (fun a => by
    match a with
    | ⟨0, _⟩ => show cl.val = 0 + cl.val; omega
    | ⟨1, _⟩ => show o = o + 0; omega)]
  exact coresAdded_apply A' cl ⟨o, ho⟩

end Cert.KernelIdeal.KVal

end
-- ==== Proof.KerTail.lean ====
/-
  The kernel program's result.

  The region leaves the [2, 4, 4] array of the cores' sums; the host lines after it add the two cores, cut the four
  columns and apply the closing arithmetic. Column `k` at class `c` is the sum over all sixteen images of term `k`,
  that is, the specification's per-class total; so the program's result is the specification's.
-/
import proofs.«103653_j11020886082202_2_alg».proof.Proof.KerFinal
import proofs.«103653_j11020886082202_2_alg».proof.Proof.KerHost
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.KVal

open Cert.KernelIdeal Cert.KernelIdeal.Gen Cert.KSum

variable (m : (ℓ : Loc nD τ sig) → Buf (Elt Ideal) ℓ)

/-- The two cores' sums of term `k` at a class are the sum over all sixteen images. -/
theorem sum_cores (c : Dev nD) (k cl : Fin 4) :
    G m c (ix3 (0 : Fin 2) cl k) + G m c (ix3 (1 : Fin 2) cl k) = ∑ u : Fin 16, Lk m c k u cl := by
  show coreSum m c (0 : Fin 2) cl k + coreSum m c (1 : Fin 2) cl k = _
  unfold coreSum
  exact sum_halves (fun u => Lk m c k u cl)

/-- The four columns are the specification's four totals. -/
theorem col0_eq (c : Dev nD) : hostCol (G m c) 0 slices_S4x4_S4x1_0_0 = Cert.Spec.Sv (Tof m c) := by
  funext j
  obtain ⟨cl, rfl⟩ : ∃ cl : Fin 4, j = ix1 cl := ⟨j 0, eq_ix1 j⟩
  rw [hostCol_apply (G m c) 0 (by omega) _ cl]
  exact sum_cores m c ⟨0, by omega⟩ cl
theorem col1_eq (c : Dev nD) : hostCol (G m c) 1 slices_S4x4_S4x1_0_1 = Cert.Spec.Icv (Tof m c) := by
  funext j
  obtain ⟨cl, rfl⟩ : ∃ cl : Fin 4, j = ix1 cl := ⟨j 0, eq_ix1 j⟩
  rw [hostCol_apply (G m c) 1 (by omega) _ cl]
  exact sum_cores m c ⟨1, by omega⟩ cl
theorem col2_eq (c : Dev nD) : hostCol (G m c) 2 slices_S4x4_S4x1_0_2 = Cert.Spec.Iv (Xof m c) (Tof m c) := by
  funext j
  obtain ⟨cl, rfl⟩ : ∃ cl : Fin 4, j = ix1 cl := ⟨j 0, eq_ix1 j⟩
  rw [hostCol_apply (G m c) 2 (by omega) _ cl]
  exact sum_cores m c ⟨2, by omega⟩ cl
theorem col3_eq (c : Dev nD) : hostCol (G m c) 3 slices_S4x4_S4x1_0_3 = Cert.Spec.Zv (Xof m c) := by
  funext j
  obtain ⟨cl, rfl⟩ : ∃ cl : Fin 4, j = ix1 cl := ⟨j 0, eq_ix1 j⟩
  rw [hostCol_apply (G m c) 3 (by omega) _ cl]
  exact sum_cores m c ⟨3, by omega⟩ cl

theorem hmem39 : main_v39 ∈ Pipeline.restRefs sig (cfgs 0).spec := by decide

/-- The result buffer after the host lines: the specification's result. -/
theorem tail_value (c : Dev nD) :
    Pipeline.afterTail₀ cfgs (dats m) 0 (V0 m) [hostOps1] c main_v39 = Cert.Spec.result (Xof m c) (Tof m c) := by
  unfold Pipeline.afterTail₀
  show StableHlo.after hostOps1 _ (Proc.devRef .tc main_v39) = _
  after_results_simp
  rw [show Pipeline.withArrays (cfgs 0).spec c (V0 m c) (fun w => (dats m 0 c).arrAt w (cfgs 0).N) (Proc.tc.devRef main_v0) = G m c from
    (Pipeline.withArrays_arr spec0 launch0.win.arr_inj c _ _ 2).trans (final m c)]
  show Cert.Spec.tail (subf (hostCol (G m c) 0 slices_S4x4_S4x1_0_0) (hostCol (G m c) 1 slices_S4x4_S4x1_0_1))
      (hostCol (G m c) 0 slices_S4x4_S4x1_0_0) (hostCol (G m c) 0 slices_S4x4_S4x1_0_0)
      (hostCol (G m c) 2 slices_S4x4_S4x1_0_2) (hostCol (G m c) 3 slices_S4x4_S4x1_0_3) = _
  rw [col0_eq, col1_eq, col2_eq, col3_eq]
  rfl

/-- THE RUN, read: the result at the specification's function of the argument arrays, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v39) = Cert.Spec.result (Xof m c) (Tof m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v39 hmem39).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KVal

end
-- ==== Proof.lean ====
/-
  The claim: a Pallas kernel that accumulates, per core and class, the region size, the inner count, the softmax
  intersection and the squared softmax mass over the images, against the jnp reference that forms the same loss from a
  zero-padded five-point stencil and integer counts.

  Both idealized programs end with the specification's result (Proof/Spec.lean) of the two argument arrays: the kernel
  because each core's accumulators hold the sums of its images' terms and the host lines add the cores and apply the
  closing arithmetic (Proof/KerCases … KerTail); the reference because its count of the pixels whose stencil product is
  neither 0 nor 5 is the region size minus the inner count (Proof/RefPix) and its other four vectors are the same
  totals (Proof/RefReduce … RefValue). No finiteness is used: sums of extended reals re-associate freely, and the only
  subtraction of totals is between counts. The frames are the generated ones; the ideal pass rewrote nothing.
-/
import proofs.«103653_j11020886082202_2_alg».proof.Defs
import proofs.«103653_j11020886082202_2_alg».proof.Proof.Gen.Kernel
import proofs.«103653_j11020886082202_2_alg».proof.Proof.Gen.Kernel.Frame
import proofs.«103653_j11020886082202_2_alg».proof.Proof.Gen.KernelIdeal
import proofs.«103653_j11020886082202_2_alg».proof.Proof.Gen.KernelIdeal.Frame
import proofs.«103653_j11020886082202_2_alg».proof.Proof.Gen.ReferenceIdeal
import proofs.«103653_j11020886082202_2_alg».proof.Proof.Gen.Pre_finite_inputs
import proofs.«103653_j11020886082202_2_alg».proof.Proof.RefRead
import proofs.«103653_j11020886082202_2_alg».proof.Proof.RefValue
import proofs.«103653_j11020886082202_2_alg».proof.Proof.KerTail
import proofs.«103653_j11020886082202_2_alg».proof.Proof.Spec
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both runs end at the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (Cert.KernelIdeal.KVal.Xof m c) (Cert.KernelIdeal.KVal.Tof m c),
    Cert.KernelIdeal.KVal.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v76_eq, Cert.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
